-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S512x4096 .f32 .bf16
  ∧ IdealRules.truncf_extf.Statement Cert.KernelIdeal.S2048x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x4096 : Shape := ⟨2, ![4096, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S16384x4096 .f32) (main_arg1 : FVec F S4096x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S16384x4096 : Shape := ⟨2, ![16384, 4096]⟩
abbrev S4096x4096 : Shape := ⟨2, ![4096, 4096]⟩
abbrev S4096x1 : Shape := ⟨2, ![4096, 1]⟩
abbrev S512x4096 : Shape := ⟨2, ![512, 4096]⟩
abbrev S512x1 : Shape := ⟨2, ![512, 1]⟩
abbrev S512 : Shape := ⟨1, ![512]⟩
abbrev S1x4096 : Shape := ⟨2, ![1, 4096]⟩
abbrev S16384x1 : Shape := ⟨2, ![16384, 1]⟩
abbrev S2048x512 : Shape := ⟨2, ![2048, 512]⟩
abbrev S1x512 : Shape := ⟨2, ![1, 512]⟩
abbrev S2048x1 : Shape := ⟨2, ![2048, 1]⟩
abbrev S2048 : Shape := ⟨1, ![2048]⟩

abbrev nBuf : Space → Nat
  | .hbm => 5
  | .vmem => 11
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096x1, .f32⟩
  | .hbm, ⟨3, _⟩ => ⟨S1x4096, .f32⟩
  | .hbm, ⟨4, _⟩ => ⟨S16384x1, .bf16⟩
  | .local _ .vmem, ⟨0, _⟩ => ⟨S512x4096, .f32⟩
  | .local _ .vmem, ⟨1, _⟩ => ⟨S512x4096, .f32⟩
  | .local _ .vmem, ⟨2, _⟩ => ⟨S512x1, .f32⟩
  | .local _ .vmem, ⟨3, _⟩ => ⟨S512x1, .f32⟩
  | .local _ .vmem, ⟨4, _⟩ => ⟨S2048x512, .f32⟩
  | .local _ .vmem, ⟨5, _⟩ => ⟨S2048x512, .f32⟩
  | .local _ .vmem, ⟨6, _⟩ => ⟨S1x512, .f32⟩
  | .local _ .vmem, ⟨7, _⟩ => ⟨S1x512, .f32⟩
  | .local _ .vmem, ⟨8, _⟩ => ⟨S2048x1, .bf16⟩
  | .local _ .vmem, ⟨9, _⟩ => ⟨S2048x1, .bf16⟩
  | .local _ .vmem, ⟨10, _⟩ => ⟨S2048x1, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_8 : BitVec 32 := 0#32
  let v19 : BitVec 1 := Scalar.cmpi .ne v18 c0_i32_8
  v19

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x1 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  reduces_S512x4096_S512 : S512x4096.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S4096x1_S1x4096 : S4096x1.ShapeCasts S1x4096
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x512_S2048x512_0_0 : ∀ a, (![0, 0] : Fin 2 → Nat) a + S2048x512.size a ≤ S2048x512.size a
  h_S2048x512 : 0 < S2048x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  reduces_S2048x512_S2048 : S2048x512.Reduces [1] S2048
  shapeCasts_S2048_S2048x1 : S2048.ShapeCasts S2048x1
  packedbf16_S2048x1_S2048x1_0_0 : (Rect.unit (s := S2048x1) ![0, 0] S2048x1.size inb_S2048x1_S2048x1_0_0).PackedRows (EltTy.packing .bf16)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S4096x1.size a
  hwx0_1 : ∀ i : grid0.Coords, EltTy.bits .f32 = 32 ∨ (Rect.block (s := S4096x1) S512x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S16384x4096.size a
  hwx1_0 : ∀ i : grid1.Coords, EltTy.bits .f32 = 32 ∨ (Rect.block (s := S16384x4096) S2048x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x4096.size a
  hwx1_1 : ∀ i : grid1.Coords, EltTy.bits .f32 = 32 ∨ (Rect.block (s := S1x4096) S1x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S16384x1.size a
  hwx1_2 : ∀ i : grid1.Coords, EltTy.bits .bf16 = 32 ∨ (Rect.block (s := S16384x1) S2048x1.size (cc1_transform_2 i) (hinb1_2 i)).WholeWords (EltTy.packing .bf16)

variable [Facts₀]

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S2048x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S16384x4096 : Shape := ⟨2, ![16384, 4096]⟩
abbrev S4096x4096 : Shape := ⟨2, ![4096, 4096]⟩
abbrev S_ : Shape := ⟨0, ![]⟩
abbrev S16384 : Shape := ⟨1, ![16384]⟩
abbrev S16384x1 : Shape := ⟨2, ![16384, 1]⟩

abbrev nBuf : Space → Nat
  | .hbm => 12
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S16384x4096, .bf16⟩
  | .hbm, ⟨3, _⟩ => ⟨S4096x4096, .bf16⟩
  | .hbm, ⟨4, _⟩ => ⟨S16384x4096, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S16384x1, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bitsLt_bf16_f32 : FTy.bits .bf16 < FTy.bits .f32
  reducesTo_S16384x4096_S16384_d1 : S16384x4096.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  dot_S16384x4096_S4096x4096_S16384x4096_1_0_0_1_n_n_wf : DotDims.WF S16384x4096 S4096x4096 S16384x4096 [1] [0] [0] [1] [] []

variable [Facts₀]

def dot_S16384x4096_S4096x4096_S16384x4096_1_0_0_1_n_n : DotDims S16384x4096 S4096x4096 S16384x4096 where
  lhsContracting := [1]
  rhsContracting := [0]
  lhsNonContracting := [0]
  rhsNonContracting := [1]
  lhsBatch := []
  rhsBatch := []
  wf := dot_S16384x4096_S4096x4096_S16384x4096_1_0_0_1_n_n_wf

class Facts : Prop extends Facts₀ where

variable [Facts]
-- ==== Proof.KernelRegion0.lean ====
/-
  The first pallas_call of `Kernel`: the weights summed along their hidden axis, 512 rows of `w` per grid point.

  Stated at a parameter `V`, the contents of the TensorCore's buffers when the region is entered. At grid point `t`
  the body loads the `[512, 4096]` block `t` of the weights whole and stores one `[512, 1]` column whole: the
  payload `k0_pay1` of the loaded block (its rows summed along the lanes). It reads nothing else that matters (the
  load of the output buffer is discarded), keeps nothing between points, and so the region's invariant is the one that
  only carries the scoped rest and the generator register.

  This module gives: the block a window shows at a point (`blk0`), that the input's staging buffer holds that block
  whether or not the point fetched it, what the body leaves in the output's staging buffer (`colOut`), the body's
  triple on any whole staging memrefs, the region's proof data, and the body obligation at every point.
-/
import proofs.«121458_j88940182766071_2_alg».proof.Proof.Gen.Kernel.Launch
import proofs.«121458_j88940182766071_2_alg».proof.Proof.Gen.Kernel.Skeleton
import proofs.«121458_j88940182766071_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weights' staging buffer holds block `t` at point `t`, fetched there or not, for any proof data whose array is
    the entry contents and whose body leaves the block in place: an input window, never cut, never idle. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-! ## What the body leaves in the output's staging buffer -/

/-- The whole `[512, 4096]` block and the whole `[512, 1]` column, as rectangles. -/
abbrev rW : Rect S512x4096 := Rect.unit (s := S512x4096) ![0, 0] S512x4096.size inb_S512x4096_S512x4096_0_0
abbrev rC : Rect S512x1 := Rect.unit (s := S512x1) ![0, 0] S512x1.size inb_S512x1_S512x1_0_0

/-- The output's staging buffer after the body: its one store, the lane sums of the loaded block, as a piece. -/
def colOut (x0 : Vec F S512x4096 .f32) : Vec F S512x1 .f32 :=
  View.canon [⟨rC, k0_pay1 (View.ld x0 rW)⟩]

/-- The one store covers the column. -/
theorem colCover (p0 : Vec F S512x1 .f32) (y : S512x1.Idx) :
    ∃ pc ∈ ([⟨rC, p0⟩] : List (View.Piece (Elt F) S512x1 .f32)), y ∈ pc.1.set :=
  View.cover_of_tiled [⟨rC, p0⟩] S512x1.size (by rfl) y

/-! ## The body's triple -/

set_option maxHeartbeats 1000000 in
/-- On whole staging memrefs, the weights' at contents `x0` and the column's at anything, the body runs to the
    continuation holding the weights' as they were and the column's at `colOut x0`. -/
theorem sound_kernel0 (c : Dev nD) (E : Set ℕ) (i : grid0.Coords) (arg1 : Memref sig .tc .vmem S512x4096 .f32) (harg1 : arg1.IsWhole) (arg2 : Memref sig .tc .vmem S512x1 .f32) (harg2 : arg2.IsWhole)
    (x0 : Vec F S512x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (colOut x0)) -∗ K ⟨⟩))
      ⊢ wp frame (wpE (defs₀ (F := F)) Variants.none c none) E (cc0__wsum_kernel i arg1 harg1 arg2 harg2) K := by
  simp only [cc0__wsum_kernel_eq_skeleton]; unfold cc0__wsum_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (colCover _)

/-! ## The region's proof data -/

/-- The arrays as the region finds them; after the body at point `t` the weights' buffer at its block and the
    column's at `colOut` of that block; the invariant the scoped rest and the generator register, untouched; nothing
    owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => colOut (blk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = colOut (blk0 V c 0 t) := by dsimp only [dat0]

theorem before0_0 (c : Dev nD) (t : Fin cfg0.N) (d) : (dat0 V c).before 0 t d = blk0 V c 0 t :=
  before0_0_of V (dat0 V c) (A_eq0 V c 0) (after0_0 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the weights' memref holds its block, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (blk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.LibWholeStore.lean ====
/-
  A buffer whose LAST store went through the rectangle covering its whole shape (offsets all zero) holds that store's payload,
  whatever was stored before: read back through the view, or loaded again through the same rectangle. General facts about
  views, stated once so that a kernel body that overwrites a scratch or an output block whole can be read off its store list.
-/
import Idealize.ShloMosaic.Lib.Pipeline.FrameBody
import Idealize.ShloMosaic.Lib.Pipeline.Value

namespace Idealize.ShloMosaic.View

variable {Val : EltTy → Type} [∀ e, Nonempty (Val e)] {S : Shape} {e : EltTy}
variable {sig : RefSig} {κ : Kind} {sp : Space}

/-- Reading a buffer back after a list of stores whose last one covers the whole shape gives that store's payload. -/
theorem read_writes_whole_last (v : View sig κ sp S e) (f : v.ty.Contents Val) {off : Fin S.rank → Nat} (h : off = fun _ => 0)
    (inb : ∀ a, off a + S.size a ≤ S.size a) (w : S.Idx → Val e) (L : List (Piece Val S e)) :
    v.read Val (v.writes Val f ((⟨Rect.unit off S.size inb, w⟩ : Piece Val S e) :: L)) = w := by
  rw [read_writes_eq_canon v f _ (fun y => ⟨_, List.Mem.head _, mem_set_unit_zero h inb y⟩), canon_cons_unit_zero h]

/-- Loading the whole shape after such a list of stores reads that payload. -/
theorem readCov_whole_last (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.Mem.head _, mem_set_unit_zero rfl inb y⟩), canon_cons_unit_zero rfl,
    ld_unit_zero rfl]

/-- Loading the whole shape of a buffer reads its contents. -/
theorem readAt_whole (v : View sig κ sp S e) (f : v.ty.Contents Val) {off : Fin S.rank → Nat} (h : off = fun _ => 0)
    (inb : ∀ a, off a + S.size a ≤ S.size a) :
    v.readAt Val (Rect.unit off S.size inb).toLoadRect f = v.read Val f := by
  rw [readAt_eq_ld]; exact ld_unit_zero h inb _

end Idealize.ShloMosaic.View

namespace Cert.Lib

/-- The zero offsets of a rank-2 and of a rank-3 rectangle, as the printed programs spell them. -/
theorem zeros2 : (![0, 0] : Fin 2 → Nat) = fun _ => 0 := funext fun a => by fin_cases a <;> rfl
theorem zeros3 : (![0, 0, 0] : Fin 3 → Nat) = fun _ => 0 := funext fun a => by fin_cases a <;> rfl

end Cert.Lib
-- ==== Proof.KernelRegion1.lean ====
/-
  The second pallas_call of `Kernel`: each row of the activations contracted against the summed weights, over an
  8 × 8 grid (row tile `m`, feature tile `k`), the partial sums carried in a `[2048, 1]` scratch column.

  Grid point `t` has `k = t mod 8`. Writing `step X R s` for the payload `k1_pay2 X R s` (the column `s` plus the lane
  sums of `X` times the row `R` spread over the rows) and `zero` for `k1_pay1`:
    * `k = 0`      — the scratch is overwritten with `zero`, then with `step X R zero`; the output is not touched;
    * `0 < k < 7`  — the scratch `s` becomes `step X R s`; the output is not touched;
    * `k = 7`      — the scratch `s` becomes `step X R s`, and the output block is stored whole with the payload
                      `k1_pay3` of the new scratch (scaled by one half and narrowed).
  So the scratch after point `t` (`accAt`) is a recursion on `t` that restarts wherever `k = 0`, and the region's
  invariant before a point that is not the first holds the scratch at what the point before left.

  Stated at a parameter `V`, the contents of the TensorCore's buffers when the region is entered.
-/
import proofs.«121458_j88940182766071_2_alg».proof.Proof.KernelRegion0
import proofs.«121458_j88940182766071_2_alg».proof.Proof.LibWholeStore

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activations' staging buffer holds block `t` at point `t`, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The summed weights' staging buffer holds block `t` at point `t`, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-! ## The two conditions of the body, in closed form -/

/-- `k = 0`, as the body computes it from the grid coordinates. -/
abbrev condFirst (i : grid1.Coords) : Prop := (Scalar.cmpi .ne (Scalar.extui (Scalar.cmpi .eq (BitVec.ofNat 32 (i 1).val) 0#32)) 0#32) = 1#1
/-- It holds exactly at the points ≡ 0 (mod 8). -/
theorem hcondFirst : ∀ t : Fin cfg1.N, condFirst (grid1.coords t) ↔ t.val % 8 = 0 :=
  (by decide +kernel : ∀ t : Fin grid1.N, condFirst (grid1.coords t) ↔ t.val % 8 = 0)

/-- `k = 7`, as the body computes it. -/
abbrev condLast (i : grid1.Coords) : Prop := k1_cond2 i = 1#1
/-- It holds exactly at the points ≡ 7 (mod 8). -/
theorem hcondLast : ∀ t : Fin cfg1.N, condLast (grid1.coords t) ↔ t.val % 8 = 7 :=
  (by decide +kernel : ∀ t : Fin grid1.N, condLast (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Where `k ≠ 7` the body stores nothing into the output block, and the block is not written back there. -/
theorem idleAt1_2 : ∀ t : Fin cfg1.N, ¬condLast (grid1.coords t) → cfg1.idle 2 (grid1.coords t) = true := by decide +kernel
theorem noFlush1_2 : ∀ t : Fin cfg1.N, ¬condLast (grid1.coords t) → (cfg1.win 2).flush t = false := by decide +kernel
/-- Where `k = 7` it stores the block whole. -/
theorem liveAt1_2 : ∀ t : Fin cfg1.N, condLast (grid1.coords t) → cfg1.idle 2 (grid1.coords t) = false := by decide +kernel

/-! ## The staging memrefs and the scratch -/

abbrev ms1_0 (t : Fin cfg1.N) : Memref sig .tc .vmem S2048x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .bf16 := win1_2.stage (cfg1.slots t 2)
abbrev hs1_2 (t : Fin cfg1.N) : (ms1_2 t).IsWhole := hstage1_2 ((cfg1.slots t 2).cast nbuf1_2)
/-- The scratch column the kernel carries between points: a whole scoped buffer of its own. -/
abbrev scM : Memref sig .tc .vmem S2048x1 .f32 := Memref.whole cc1_scratch0

/-- A scoped buffer held whole at some contents. -/
abbrev anyAt (c : Dev nD) (b : Ref sig .tc) : sProp 𝕄 :=
  iprop(∃ f : Buf (Elt F) ((c : Thread nD τ).loc b), ((c : Thread nD τ).loc b) ↦{fullShare} f)

/-- The invariant that carries only the scoped rest and the generator register, with the scratch as a memref owned at
    some contents: the first pallas_call's four staging buffers, the scratch, the register. -/
theorem PhiA1_eq (c : Dev nD) :
    (Pipeline.ΦA spec1 c : sProp 𝕄)
      = iprop(iprop(anyAt c cc0_stg0_0 ∗ anyAt c cc0_stg0_1 ∗ anyAt c cc0_stg1_0 ∗ anyAt c cc0_stg1_1 ∗ (∃ d, owns (c : Thread nD τ) scM fullShare d)) ∗ (∃ r, prngReg c r)) := by
  unfold Pipeline.ΦA; rw [scopedRest1_eq]; simp only [scM, owns_whole]; try rfl

/-! ## The body's triple, case by case -/

set_option maxHeartbeats 2000000 in
/-- `k = 0`: whatever the scratch held, it ends at `step X R zero`; the output's buffer is handed back as found. -/
theorem run_first (c : Dev nD) (E : Set ℕ) (i : grid1.Coords)
    (arg2 : Memref sig .tc .vmem S2048x512 .f32) (harg2 : arg2.IsWhole) (arg3 : Memref sig .tc .vmem S1x512 .f32) (harg3 : arg3.IsWhole)
    (arg4 : Memref sig .tc .vmem S2048x1 .bf16) (harg4 : arg4.IsWhole) (arg5 : Memref sig .tc .vmem S2048x1 .f32) (harg5 : arg5.IsWhole)
    (hf : condFirst i) (hl : ¬condLast i)
    (x0 : Vec F S2048x512 .f32) (x1 : Vec F S1x512 .f32) (xi : Vec F S2048x1 .bf16) (K : PUnit → sProp 𝕄) :
    iprop(owns (c : Thread nD τ) arg2 fullShare x0 ∗ owns (c : Thread nD τ) arg3 fullShare x1 ∗ owns (c : Thread nD τ) arg4 fullShare xi
        ∗ (∃ d, owns (c : Thread nD τ) arg5 fullShare d)
        ∗ (iprop(owns (c : Thread nD τ) arg2 fullShare x0 ∗ owns (c : Thread nD τ) arg3 fullShare x1 ∗ owns (c : Thread nD τ) arg4 fullShare xi
            ∗ owns (c : Thread nD τ) arg5 fullShare (k1_pay2 x0 x1 (k1_pay1 (F := F)))) -∗ K ⟨⟩))
      ⊢ wp frame (wpE (defs₀ (F := F)) Variants.none c none) E (cc1__matvec_kernel i arg2 harg2 arg3 harg3 arg4 harg4 arg5 harg5) K := by
  simp only [cc1__matvec_kernel_eq_skeleton]; unfold cc1__matvec_kernel_skel
  unfold owns
  iintro ⟨⟨%f0, %hf0, H0⟩, ⟨%f1, %hf1, H1⟩, ⟨%f4, %hf4, H4⟩, ⟨%d5, %f5, -, H5⟩, Hk⟩
  obtain rfl := harg2.eq_unread hf0; obtain rfl := harg3.eq_unread hf1; obtain rfl := harg4.eq_unread hf4
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact harg4.read_unread _
    iexact H4
  iexists _; isplitr
  swap; · iexact H5
  ipureintro
  sl_unfold_run_names
  rw [View.read_writes_whole_last arg5.view _ Cert.Lib.zeros2, View.readCov_whole_last arg5.view Cert.Lib.zeros2,
    View.readAt_whole arg2.view _ Cert.Lib.zeros2, View.readAt_whole arg3.view _ Cert.Lib.zeros2, hf0, hf1]

set_option maxHeartbeats 2000000 in
/-- `0 < k < 7`: the scratch `s` ends at `step X R s`; the output's buffer is handed back as found. -/
theorem run_mid (c : Dev nD) (E : Set ℕ) (i : grid1.Coords)
    (arg2 : Memref sig .tc .vmem S2048x512 .f32) (harg2 : arg2.IsWhole) (arg3 : Memref sig .tc .vmem S1x512 .f32) (harg3 : arg3.IsWhole)
    (arg4 : Memref sig .tc .vmem S2048x1 .bf16) (harg4 : arg4.IsWhole) (arg5 : Memref sig .tc .vmem S2048x1 .f32) (harg5 : arg5.IsWhole)
    (hf : ¬condFirst i) (hl : ¬condLast i)
    (x0 : Vec F S2048x512 .f32) (x1 : Vec F S1x512 .f32) (xi : Vec F S2048x1 .bf16) (s : Vec F S2048x1 .f32) (K : PUnit → sProp 𝕄) :
    iprop(owns (c : Thread nD τ) arg2 fullShare x0 ∗ owns (c : Thread nD τ) arg3 fullShare x1 ∗ owns (c : Thread nD τ) arg4 fullShare xi
        ∗ owns (c : Thread nD τ) arg5 fullShare s
        ∗ (iprop(owns (c : Thread nD τ) arg2 fullShare x0 ∗ owns (c : Thread nD τ) arg3 fullShare x1 ∗ owns (c : Thread nD τ) arg4 fullShare xi
            ∗ owns (c : Thread nD τ) arg5 fullShare (k1_pay2 x0 x1 s)) -∗ K ⟨⟩))
      ⊢ wp frame (wpE (defs₀ (F := F)) Variants.none c none) E (cc1__matvec_kernel i arg2 harg2 arg3 harg3 arg4 harg4 arg5 harg5) K := by
  simp only [cc1__matvec_kernel_eq_skeleton]; unfold cc1__matvec_kernel_skel
  unfold owns
  iintro ⟨⟨%f0, %hf0, H0⟩, ⟨%f1, %hf1, H1⟩, ⟨%f4, %hf4, H4⟩, ⟨%f5, %hf5, H5⟩, Hk⟩
  obtain rfl := harg2.eq_unread hf0; obtain rfl := harg3.eq_unread hf1; obtain rfl := harg4.eq_unread hf4; obtain rfl := harg5.eq_unread hf5
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact harg4.read_unread _
    iexact H4
  iexists _; isplitr
  swap; · iexact H5
  ipureintro
  sl_unfold_run_names
  rw [View.read_writes_whole_last arg5.view _ Cert.Lib.zeros2,
    View.readAt_whole arg2.view _ Cert.Lib.zeros2, View.readAt_whole arg3.view _ Cert.Lib.zeros2,
    View.readAt_whole arg5.view _ Cert.Lib.zeros2, hf0, hf1, hf5]

set_option maxHeartbeats 2000000 in
/-- `k = 7`: the scratch `s` ends at `step X R s`, and the output's buffer, whatever it held, at the payload
    `k1_pay3` of that. -/
theorem run_last (c : Dev nD) (E : Set ℕ) (i : grid1.Coords)
    (arg2 : Memref sig .tc .vmem S2048x512 .f32) (harg2 : arg2.IsWhole) (arg3 : Memref sig .tc .vmem S1x512 .f32) (harg3 : arg3.IsWhole)
    (arg4 : Memref sig .tc .vmem S2048x1 .bf16) (harg4 : arg4.IsWhole) (arg5 : Memref sig .tc .vmem S2048x1 .f32) (harg5 : arg5.IsWhole)
    (hf : ¬condFirst i) (hl : condLast i)
    (x0 : Vec F S2048x512 .f32) (x1 : Vec F S1x512 .f32) (s : Vec F S2048x1 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare s
        ∗ (iprop(owns (c : Thread nD τ) arg2 fullShare x0 ∗ owns (c : Thread nD τ) arg3 fullShare x1
            ∗ owns (c : Thread nD τ) arg4 fullShare (k1_pay3 (k1_pay2 x0 x1 s))
            ∗ owns (c : Thread nD τ) arg5 fullShare (k1_pay2 x0 x1 s)) -∗ K ⟨⟩))
      ⊢ wp frame (wpE (defs₀ (F := F)) Variants.none c none) E (cc1__matvec_kernel i arg2 harg2 arg3 harg3 arg4 harg4 arg5 harg5) K := by
  simp only [cc1__matvec_kernel_eq_skeleton]; unfold cc1__matvec_kernel_skel
  unfold owns
  iintro ⟨⟨%f0, %hf0, H0⟩, ⟨%f1, %hf1, H1⟩, ⟨%d4, %f4, -, H4⟩, ⟨%f5, %hf5, H5⟩, Hk⟩
  obtain rfl := harg2.eq_unread hf0; obtain rfl := harg3.eq_unread hf1; obtain rfl := harg5.eq_unread hf5
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    sl_unfold_run_names
    rw [View.read_writes_whole_last arg4.view _ Cert.Lib.zeros2, View.readCov_whole_last arg5.view Cert.Lib.zeros2,
      View.readAt_whole arg2.view _ Cert.Lib.zeros2, View.readAt_whole arg3.view _ Cert.Lib.zeros2,
      View.readAt_whole arg5.view _ Cert.Lib.zeros2, hf0, hf1, hf5]
  iexists _; isplitr
  swap; · iexact H5
  ipureintro
  sl_unfold_run_names
  rw [View.read_writes_whole_last arg5.view _ Cert.Lib.zeros2,
    View.readAt_whole arg2.view _ Cert.Lib.zeros2, View.readAt_whole arg3.view _ Cert.Lib.zeros2,
    View.readAt_whole arg5.view _ Cert.Lib.zeros2, hf0, hf1, hf5]

/-! ## The scratch after each point -/

/-- What the scratch column holds after the body at position `n`: where `k = 0` one step from `zero`, elsewhere one
    step from what the point before left. -/
def accAt (c : Dev nD) : (n : ℕ) → n < cfg1.N → Vec F S2048x1 .f32
  | 0, hn => k1_pay2 (blk1 V c 0 ⟨0, hn⟩) (blk1 V c 1 ⟨0, hn⟩) (k1_pay1 (F := F))
  | n + 1, hn =>
    if (n + 1) % 8 = 0 then k1_pay2 (blk1 V c 0 ⟨n + 1, hn⟩) (blk1 V c 1 ⟨n + 1, hn⟩) (k1_pay1 (F := F))
    else k1_pay2 (blk1 V c 0 ⟨n + 1, hn⟩) (blk1 V c 1 ⟨n + 1, hn⟩) (accAt c n (Nat.lt_of_succ_lt hn))

/-- At a point with `k = 0` the accumulation restarts. -/
theorem accAt_first (c : Dev nD) (t : Fin cfg1.N) (h : t.val % 8 = 0) :
    accAt V c t.val t.isLt = k1_pay2 (blk1 V c 0 t) (blk1 V c 1 t) (k1_pay1 (F := F)) := by
  obtain ⟨n, hn⟩ := t
  cases n with
  | zero => rfl
  | succ n => exact if_pos h

/-- At any other point it continues from the point before. -/
theorem accAt_next (c : Dev nD) (t : Fin cfg1.N) (h : ¬t.val % 8 = 0) :
    accAt V c t.val t.isLt = k1_pay2 (blk1 V c 0 t) (blk1 V c 1 t) (accAt V c (t.val - 1) (Nat.lt_of_le_of_lt (Nat.sub_le _ _) t.isLt)) := by
  obtain ⟨n, hn⟩ := t
  cases n with
  | zero => exact absurd (Nat.zero_mod 8) h
  | succ n => exact if_neg h

/-! ## The region's invariant -/

/-- Before position `n`: at the first point the scoped rest at anything and the generator register; afterwards the same
    with the scratch column at what the point before left in it. -/
def PhiS (c : Dev nD) : (n : ℕ) → n ≤ cfg1.N → sProp 𝕄
  | 0, _ => Pipeline.ΦA spec1 c
  | n + 1, hn => iprop(iprop(anyAt c cc0_stg0_0 ∗ anyAt c cc0_stg0_1 ∗ anyAt c cc0_stg1_0 ∗ anyAt c cc0_stg1_1 ∗ owns (c : Thread nD τ) scM fullShare (accAt V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(anyAt c cc0_stg0_0 ∗ anyAt c cc0_stg0_1 ∗ anyAt c cc0_stg1_0 ∗ anyAt c cc0_stg1_1 ∗ owns (c : Thread nD τ) scM fullShare (accAt V c n hn)) ∗ (∃ r, prngReg c r)) := rfl

theorem PhiS_pos (c : Dev nD) (n : ℕ) (h : n ≤ cfg1.N) (hz : n ≠ 0) :
    PhiS V c n h = iprop(iprop(anyAt c cc0_stg0_0 ∗ anyAt c cc0_stg0_1 ∗ anyAt c cc0_stg1_0 ∗ anyAt c cc0_stg1_1 ∗ owns (c : Thread nD τ) scM fullShare (accAt V c (n - 1) (by omega))) ∗ (∃ r, prngReg c r)) := by
  cases n with
  | zero => exact absurd rfl hz
  | succ n => rfl

/-! ## The region's proof data -/

/-- The arrays as the region finds them; after the body at point `t` each input's buffer at its block and the output's
    at the payload `k1_pay3` of the scratch (consulted only where `k = 7`); the invariant `PhiS`; nothing owed; full
    shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => k1_pay3 (accAt V c t.val t.isLt)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = k1_pay3 (accAt V c t.val t.isLt) := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the closed forms say which of the three cases the
    point is in; the invariant hands the body the scratch at what the point before left (at anything where `k = 0`) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 64 := lt_of_lt_of_eq t.isLt (show cfg1.N = 64 from N_1)
  by_cases h0 : t.val % 8 = 0
  · have hl : ¬t.val % 8 = 7 := by omega
    rw [Dat.leavesExact_idle (dat1 V c) 2 t (idleAt1_2 t (fun h => hl ((hcondLast t).mp h))) (noFlush1_2 t (fun h => hl ((hcondLast t).mp h)))]
    rw [accAt_first V c t h0]
    by_cases hz : t.val = 0
    · rw [PhiS_castSucc V c t, PhiS_zero V c _ _ hz, PhiA1_eq]
      iintro ⟨⟨⟨HA, HB, HC, HD, HS⟩, Hg⟩, Ho, ⟨%d0, H0⟩, ⟨%d1, H1⟩, ⟨%d2, H2⟩⟩
      iapply (run_first c Set.univ (grid1.coords t) _ _ _ _ _ _ _ _ ((hcondFirst t).mpr h0) (fun h => hl ((hcondLast t).mp h)) (blk1 V c 0 t) (blk1 V c 1 t) ((dat1 V c).before 2 t d2) _)
      isplitl [H0]; · iexact H0
      isplitl [H1]; · iexact H1
      isplitl [H2]; · iexact H2
      isplitl [HS]; · iexact HS
      iintro ⟨H0, H1, H2, HS⟩
      isplitl [HA HB HC HD HS Hg]
      · isplitl [HA HB HC HD HS]
        · isplitl [HA]; · iexact HA
          isplitl [HB]; · iexact HB
          isplitl [HC]; · iexact HC
          isplitl [HD]; · iexact HD
          iexact HS
        iexact Hg
      isplitl [Ho]; · iexact Ho
      isplitl [H0]; · iexact H0
      isplitl [H1]; · iexact H1
      iexists _; iexact H2
    · rw [PhiS_castSucc V c t, PhiS_pos V c _ _ hz]
      iintro ⟨⟨⟨HA, HB, HC, HD, HS⟩, Hg⟩, Ho, ⟨%d0, H0⟩, ⟨%d1, H1⟩, ⟨%d2, H2⟩⟩
      iapply (run_first c Set.univ (grid1.coords t) _ _ _ _ _ _ _ _ ((hcondFirst t).mpr h0) (fun h => hl ((hcondLast t).mp h)) (blk1 V c 0 t) (blk1 V c 1 t) ((dat1 V c).before 2 t d2) _)
      isplitl [H0]; · iexact H0
      isplitl [H1]; · iexact H1
      isplitl [H2]; · iexact H2
      isplitl [HS]; · iexists _; iexact HS
      iintro ⟨H0, H1, H2, HS⟩
      isplitl [HA HB HC HD HS Hg]
      · isplitl [HA HB HC HD HS]
        · isplitl [HA]; · iexact HA
          isplitl [HB]; · iexact HB
          isplitl [HC]; · iexact HC
          isplitl [HD]; · iexact HD
          iexact HS
        iexact Hg
      isplitl [Ho]; · iexact Ho
      isplitl [H0]; · iexact H0
      isplitl [H1]; · iexact H1
      iexists _; iexact H2
  · have hz : t.val ≠ 0 := fun e => h0 (by rw [e])
    by_cases h1 : t.val % 8 = 7
    · rw [show (dat1 V c).leavesExact 2 t = owns (c : Thread nD τ) (ms1_2 t) fullShare ((dat1 V c).after 2 t) from by
        unfold Dat.leavesExact; rw [liveAt1_2 t ((hcondLast t).mpr h1)], after1_2]
      rw [accAt_next V c t h0]
      rw [PhiS_castSucc V c t, PhiS_pos V c _ _ hz]
      iintro ⟨⟨⟨HA, HB, HC, HD, HS⟩, Hg⟩, Ho, ⟨%d0, H0⟩, ⟨%d1, H1⟩, ⟨%d2, H2⟩⟩
      iapply (run_last c Set.univ (grid1.coords t) _ _ _ _ _ _ _ _ (fun h => h0 ((hcondFirst t).mp h)) ((hcondLast t).mpr h1) (blk1 V c 0 t) (blk1 V c 1 t) _ _)
      isplitl [H0]; · iexact H0
      isplitl [H1]; · iexact H1
      isplitl [H2]; · iexists _; iexact H2
      isplitl [HS]; · iexact HS
      iintro ⟨H0, H1, H2, HS⟩
      isplitl [HA HB HC HD HS Hg]
      · isplitl [HA HB HC HD HS]
        · isplitl [HA]; · iexact HA
          isplitl [HB]; · iexact HB
          isplitl [HC]; · iexact HC
          isplitl [HD]; · iexact HD
          iexact HS
        iexact Hg
      isplitl [Ho]; · iexact Ho
      isplitl [H0]; · iexact H0
      isplitl [H1]; · iexact H1
      iexact H2
    · rw [Dat.leavesExact_idle (dat1 V c) 2 t (idleAt1_2 t (fun h => h1 ((hcondLast t).mp h))) (noFlush1_2 t (fun h => h1 ((hcondLast t).mp h)))]
      rw [accAt_next V c t h0]
      rw [PhiS_castSucc V c t, PhiS_pos V c _ _ hz]
      iintro ⟨⟨⟨HA, HB, HC, HD, HS⟩, Hg⟩, Ho, ⟨%d0, H0⟩, ⟨%d1, H1⟩, ⟨%d2, H2⟩⟩
      iapply (run_mid c Set.univ (grid1.coords t) _ _ _ _ _ _ _ _ (fun h => h0 ((hcondFirst t).mp h)) (fun h => h1 ((hcondLast t).mp h)) (blk1 V c 0 t) (blk1 V c 1 t) ((dat1 V c).before 2 t d2) _ _)
      isplitl [H0]; · iexact H0
      isplitl [H1]; · iexact H1
      isplitl [H2]; · iexact H2
      isplitl [HS]; · iexact HS
      iintro ⟨H0, H1, H2, HS⟩
      isplitl [HA HB HC HD HS Hg]
      · isplitl [HA HB HC HD HS]
        · isplitl [HA]; · iexact HA
          isplitl [HB]; · iexact HB
          isplitl [HC]; · iexact HC
          isplitl [HD]; · iexact HD
          iexact HS
        iexact Hg
      isplitl [Ho]; · iexact Ho
      isplitl [H0]; · iexact H0
      isplitl [H1]; · iexact H1
      iexists _; iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-! ## Into the invariant and out of it -/

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives the launch's form back: what the scratch holds is forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HA, HB, HC, HD, HS⟩, Hg⟩
  isplitl [HA HB HC HD HS]
  · isplitl [HA]; · iexact HA
    isplitl [HB]; · iexact HB
    isplitl [HC]; · iexact HC
    isplitl [HD]; · iexact HD
    iexists _; iexact HS
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.Kernel.Frm

end
-- ==== Proof.KernelRun.lean ====
/-
  The whole run of `Kernel`: @main as three segments — the first pallas_call, the host reshape of its `[4096, 1]` result
  into a `[1, 4096]` row, the second pallas_call — and the contents of every unscoped buffer at each boundary between
  them, folded from the launch memory:

    `Wl`  at launch;
    `Wa`  after the first pallas_call: its arrays at what its write-backs leave, every other buffer as before;
    `Wb`  after the reshape;
    `Wc`  after the second pallas_call: its arrays at what its write-backs leave, every other buffer as before.

  Each pallas_call is a region whose thread state is "every unscoped buffer at the boundary's contents, the generator
  register at some state, nothing owed"; its arrays are split out of the unscoped buffers at entry and put back at
  exit. The run theorem `run_all` says every weakly fair execution terminates with every unscoped buffer at `Wc`; the two
  argument arrays are read back through the fold to their launch contents (no segment writes them), and the result
  array is what the second region's write-backs leave.
-/
import proofs.«121458_j88940182766071_2_alg».proof.Proof.KernelRegion1

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev Wl : Dev nD → Valuation τ sig (Elt F) := fun c b => m (c, b)
/-- The same read at the TensorCore's references: what the first region's proof data take. -/
abbrev Vl : (c : Dev nD) → (b : Ref sig .tc) → Buf (Elt F) ((c : Thread nD τ).loc b) := fun c b => Wl m c b

/-- After the first region: its arrays at what the pipeline leaves, every other buffer as entered. -/
def Wa (c : Dev nD) : Valuation τ sig (Elt F) :=
  Pipeline.withArrays spec0 c (Wl m c) fun w => (dat0 (Vl m) c).arrAt w cfg0.N
theorem Wa_arr (c : Dev nD) (w : Fin cfg0.W) :
    Wa m c (Proc.devRef .tc (Pipeline.arrRef spec0 w)) = (dat0 (Vl m) c).arrAt w cfg0.N := by
  unfold Wa; exact Pipeline.withArrays_arr spec0 launch0.win.arr_inj c _ _ w
theorem Wa_of_ne (c : Dev nD) (b : Ref sig .tc) (hb : ∀ w, Pipeline.arrRef spec0 w ≠ b) :
    Wa m c (Proc.devRef .tc b) = Wl m c (Proc.devRef .tc b) := by
  unfold Wa; exact Pipeline.withArrays_of_ne spec0 c _ _ b hb
abbrev Va : (c : Dev nD) → (b : Ref sig .tc) → Buf (Elt F) ((c : Thread nD τ).loc b) := fun c b => Wa m c b
theorem hF0 (c : Dev nD) (w : Fin cfg0.W) : (dat0 (Vl m) c).arrAt w cfg0.N = Va m c (Pipeline.arrRef spec0 w) :=
  (Wa_arr m c w).symm
theorem hrest0 (c : Dev nD) : ∀ b, b ∉ Finset.univ.image (Pipeline.arrRef spec0) → Va m c b = Vl m c b :=
  fun b hb => Wa_of_ne m c b fun w e => hb (Finset.mem_image.mpr ⟨w, Finset.mem_univ _, e⟩)

/-- After the reshape (the second region's entry). -/
abbrev Wb : Dev nD → Valuation τ sig (Elt F) := fun c => StableHlo.after hostOps1 (Wa m c)
abbrev Vb : (c : Dev nD) → (b : Ref sig .tc) → Buf (Elt F) ((c : Thread nD τ).loc b) := fun c b => Wb m c b

/-- After the second region: its arrays at what the pipeline leaves, every other buffer as entered. -/
def Wc (c : Dev nD) : Valuation τ sig (Elt F) :=
  Pipeline.withArrays spec1 c (Wb m c) fun w => (dat1 (Vb m) c).arrAt w cfg1.N
theorem Wc_arr (c : Dev nD) (w : Fin cfg1.W) :
    Wc m c (Proc.devRef .tc (Pipeline.arrRef spec1 w)) = (dat1 (Vb m) c).arrAt w cfg1.N := by
  unfold Wc; exact Pipeline.withArrays_arr spec1 launch1.win.arr_inj c _ _ w
theorem Wc_of_ne (c : Dev nD) (b : Ref sig .tc) (hb : ∀ w, Pipeline.arrRef spec1 w ≠ b) :
    Wc m c (Proc.devRef .tc b) = Wb m c (Proc.devRef .tc b) := by
  unfold Wc; exact Pipeline.withArrays_of_ne spec1 c _ _ b hb
abbrev Vc : (c : Dev nD) → (b : Ref sig .tc) → Buf (Elt F) ((c : Thread nD τ).loc b) := fun c b => Wc m c b
theorem hF1 (c : Dev nD) (w : Fin cfg1.W) : (dat1 (Vb m) c).arrAt w cfg1.N = Vc m c (Pipeline.arrRef spec1 w) :=
  (Wc_arr m c w).symm
theorem hrest1 (c : Dev nD) : ∀ b, b ∉ Finset.univ.image (Pipeline.arrRef spec1) → Vc m c b = Vb m c b :=
  fun b hb => Wc_of_ne m c b fun w e => hb (Finset.mem_image.mpr ⟨w, Finset.mem_univ _, e⟩)

/-- The reshape writes its own result buffer only. -/
theorem Wb_of_ne (c : Dev nD) (b : Ref sig .tc) (hb : b ≠ main_v1) :
    Wb m c (Proc.devRef .tc b) = Wa m c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-! ### The arguments end as launched -/

/-- The activations: an input of the second region, no array of the first, not written by the reshape. -/
theorem Wc_main_arg0 (c : Dev nD) : Wc m c (Proc.devRef .tc main_arg0) = m ((c : Thread nD τ).loc main_arg0) :=
  calc Wc m c (Proc.devRef .tc main_arg0)
    _ = Wb m c (Proc.devRef .tc main_arg0) := (Wc_arr m c 0).trans (((dat1 (Vb m) c).arrAt_in 0 rfl _).trans (A_eq1 (Vb m) c 0))
    _ = Wa m c (Proc.devRef .tc main_arg0) := Wb_of_ne m c main_arg0 (by decide)
    _ = Wl m c (Proc.devRef .tc main_arg0) := Wa_of_ne m c main_arg0 (by decide)
    _ = m ((c : Thread nD τ).loc main_arg0) := rfl

/-- The weights: an input of the first region, then touched by nothing. -/
theorem Wc_main_arg1 (c : Dev nD) : Wc m c (Proc.devRef .tc main_arg1) = m ((c : Thread nD τ).loc main_arg1) :=
  calc Wc m c (Proc.devRef .tc main_arg1)
    _ = Wb m c (Proc.devRef .tc main_arg1) := Wc_of_ne m c main_arg1 (by decide)
    _ = Wa m c (Proc.devRef .tc main_arg1) := Wb_of_ne m c main_arg1 (by decide)
    _ = Wl m c (Proc.devRef .tc main_arg1) := (Wa_arr m c 0).trans (((dat0 (Vl m) c).arrAt_in 0 rfl _).trans (A_eq0 (Vl m) c 0))
    _ = m ((c : Thread nD τ).loc main_arg1) := rfl

/-! ## The proof data family and the thread state -/

/-- No pallas_call has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (Vl m) c
  | ⟨1, _⟩ => fun c => dat1 (Vb m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The reshape allocates nothing. -/
theorem reshape_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tend (c : Dev nD) : sProp 𝕄 := iprop(StableHlo.held (c : Thread nD τ) (Pipeline.ucRefs τ sig) (Wc m c) ∗ ∃ r, prngReg c r)

/-! ## The regions as segments -/

set_option backward.isDefEq.respectTransparency.types false in
/-- The first pallas_call over the thread state: entered from every unscoped buffer at `Wl`, left at `Wa`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vl m) c).loose
  hwaits := Pipeline.hwaits_of_owed_zero _ _ _ _ L lv 0 fun _ _ => rfl
  pre c := iprop(StableHlo.held (c : Thread nD τ) (Pipeline.ucRefs τ sig) (Wl m c) ∗ R c)
  post c := iprop(StableHlo.held (c : Thread nD τ) (Pipeline.ucRefs τ sig) (Wa m c) ∗ R c)
  X c := iprop(∃ r, prngReg c r)
  Y c := iprop(∃ r, prngReg c r)
  Z c := Pipeline.unscopedRest (Ix := Unit) (Name := ℕ) (U := UR sig nD τ) (Lvl := ℕ) spec0 c (Vl m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vl m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vl m c) (Va m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call over the thread state: entered from every unscoped buffer at `Wb`, left at `Wc`. The
    generator register and the scoped rest enter the region's invariant at its first point; after the last point the
    invariant gives them back, the scratch column's contents forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vb m) c).loose
  hwaits := Pipeline.hwaits_of_owed_zero _ _ _ _ L lv 1 fun _ _ => rfl
  pre c := iprop(StableHlo.held (c : Thread nD τ) (Pipeline.ucRefs τ sig) (Wb m c) ∗ R c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vb m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vb m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = (dat1 (Vb m) c).Φ (Fin.last cfg1.N) from rfl]
    have h := hout1 (Vb m) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vb m c) (Vc m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

/-- @main's three segments in order. -/
abbrev segs : List (Pipeline.Seg (pcfgs (F := F)) adm (pdats m) () defs₀ 𝒱₀ L lv) :=
  [ .region (reg0 m),
    .host (hseg hostOps1 hostOps1_sub reshape_fresh (Wa m)),
    .region (reg1 m) ]
/-- @main is the run of the segments. -/
theorem main_run (c : Dev nD) : main (F := F) c = Pipeline.Seg.run (segs m) := (main_chain c).trans (by chain_rfl)

variable (ρ : Dev nD → PrngReg)

set_option backward.isDefEq.respectTransparency.types false in
/-- THE RUN. From any memory with zero counters every weakly fair execution of @main terminates, nothing faulting, and
    every final state holds every unscoped buffer at the last boundary's contents `Wc`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wc m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wl m c) ∗ R c)) (Tₙ := Tend m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wl m c)
        from Pipeline.unscopedBufs_held c (Wl m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wc m c b)
    (hfin := fun c s' => by
      iintro ⟨⟨Hh, -⟩, HSI⟩
      unfold StableHlo.held
      imodintro
      iapply (pointsTo_read_all (Pipeline.ucRefs τ sig) (fun b => (((c : Thread nD τ)).1, b)) (Wc m c) s')
      isplitl [Hh] <;> iassumption)
    (hQ := fun s h => h)

/-- THE FRAME: every weakly fair execution terminates, nothing faulting, with both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (Wc_main_arg0 m c),
     (h c _ (mem_uc main_arg1 (by decide))).trans (Wc_main_arg1 m c)⟩) (run_all m ρ)

/-- The same run with the result array named: what the second region's write-backs leave in it. -/
theorem run_named : θ_run defs (onTc (τ := τ) (main (F := F))) ⟨m, fun _ => 0, ρ⟩ (fun r => ∀ c : Dev nD,
      r.2.mem ((c.tc : Thread nD τ).loc main_v2) = (dat1 (Vb m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v2 (by decide))).trans (Wc_arr m c 2),
     (h c _ (mem_uc main_arg0 (by decide))).trans (Wc_main_arg0 m c),
     (h c _ (mem_uc main_arg1 (by decide))).trans (Wc_main_arg1 m c)⟩) (run_all m ρ)

end Cert.Kernel.Frm

end
-- ==== Proof.KernelIdealRegion0.lean ====
/-
  The first pallas_call of `KernelIdeal`: the weights summed along their hidden axis, 512 rows of `w` per grid point.

  Stated at a parameter `V`, the contents of the TensorCore's buffers when the region is entered. At grid point `t`
  the body loads the `[512, 4096]` block `t` of the weights whole and stores one `[512, 1]` column whole: the
  payload `k0_pay1` of the loaded block (its rows summed along the lanes). It reads nothing else that matters (the
  load of the output buffer is discarded), keeps nothing between points, and so the region's invariant is the one that
  only carries the scoped rest and the generator register.

  This module gives: the block a window shows at a point (`blk0`), that the input's staging buffer holds that block
  whether or not the point fetched it, what the body leaves in the output's staging buffer (`colOut`), the body's
  triple on any whole staging memrefs, the region's proof data, and the body obligation at every point.
-/
import proofs.«121458_j88940182766071_2_alg».proof.Proof.Gen.KernelIdeal.Launch
import proofs.«121458_j88940182766071_2_alg».proof.Proof.Gen.KernelIdeal.Skeleton
import proofs.«121458_j88940182766071_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weights' staging buffer holds block `t` at point `t`, fetched there or not, for any proof data whose array is
    the entry contents and whose body leaves the block in place: an input window, never cut, never idle. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-! ## What the body leaves in the output's staging buffer -/

/-- The whole `[512, 4096]` block and the whole `[512, 1]` column, as rectangles. -/
abbrev rW : Rect S512x4096 := Rect.unit (s := S512x4096) ![0, 0] S512x4096.size inb_S512x4096_S512x4096_0_0
abbrev rC : Rect S512x1 := Rect.unit (s := S512x1) ![0, 0] S512x1.size inb_S512x1_S512x1_0_0

/-- The output's staging buffer after the body: its one store, the lane sums of the loaded block, as a piece. -/
def colOut (x0 : Vec F S512x4096 .f32) : Vec F S512x1 .f32 :=
  View.canon [⟨rC, k0_pay1 (View.ld x0 rW)⟩]

/-- The one store covers the column. -/
theorem colCover (p0 : Vec F S512x1 .f32) (y : S512x1.Idx) :
    ∃ pc ∈ ([⟨rC, p0⟩] : List (View.Piece (Elt F) S512x1 .f32)), y ∈ pc.1.set :=
  View.cover_of_tiled [⟨rC, p0⟩] S512x1.size (by rfl) y

/-! ## The body's triple -/

set_option maxHeartbeats 1000000 in
/-- On whole staging memrefs, the weights' at contents `x0` and the column's at anything, the body runs to the
    continuation holding the weights' as they were and the column's at `colOut x0`. -/
theorem sound_kernel0 (c : Dev nD) (E : Set ℕ) (i : grid0.Coords) (arg1 : Memref sig .tc .vmem S512x4096 .f32) (harg1 : arg1.IsWhole) (arg2 : Memref sig .tc .vmem S512x1 .f32) (harg2 : arg2.IsWhole)
    (x0 : Vec F S512x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (colOut x0)) -∗ K ⟨⟩))
      ⊢ wp frame (wpE (defs₀ (F := F)) Variants.none c none) E (cc0__wsum_kernel i arg1 harg1 arg2 harg2) K := by
  simp only [cc0__wsum_kernel_eq_skeleton]; unfold cc0__wsum_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (colCover _)

/-! ## The region's proof data -/

/-- The arrays as the region finds them; after the body at point `t` the weights' buffer at its block and the
    column's at `colOut` of that block; the invariant the scoped rest and the generator register, untouched; nothing
    owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => colOut (blk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = colOut (blk0 V c 0 t) := by dsimp only [dat0]

theorem before0_0 (c : Dev nD) (t : Fin cfg0.N) (d) : (dat0 V c).before 0 t d = blk0 V c 0 t :=
  before0_0_of V (dat0 V c) (A_eq0 V c 0) (after0_0 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the weights' memref holds its block, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (blk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.KernelIdealRegion1.lean ====
/-
  The second pallas_call of `KernelIdeal`: each row of the activations contracted against the summed weights, over an
  8 × 8 grid (row tile `m`, feature tile `k`), the partial sums carried in a `[2048, 1]` scratch column.

  Grid point `t` has `k = t mod 8`. Writing `step X R s` for the payload `k1_pay2 X R s` (the column `s` plus the lane
  sums of `X` times the row `R` spread over the rows) and `zero` for `k1_pay1`:
    * `k = 0`      — the scratch is overwritten with `zero`, then with `step X R zero`; the output is not touched;
    * `0 < k < 7`  — the scratch `s` becomes `step X R s`; the output is not touched;
    * `k = 7`      — the scratch `s` becomes `step X R s`, and the output block is stored whole with the payload
                      `k1_pay3` of the new scratch (scaled by one half and narrowed).
  So the scratch after point `t` (`accAt`) is a recursion on `t` that restarts wherever `k = 0`, and the region's
  invariant before a point that is not the first holds the scratch at what the point before left.

  Stated at a parameter `V`, the contents of the TensorCore's buffers when the region is entered.
-/
import proofs.«121458_j88940182766071_2_alg».proof.Proof.KernelIdealRegion0
import proofs.«121458_j88940182766071_2_alg».proof.Proof.LibWholeStore

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activations' staging buffer holds block `t` at point `t`, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The summed weights' staging buffer holds block `t` at point `t`, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-! ## The two conditions of the body, in closed form -/

/-- `k = 0`, as the body computes it from the grid coordinates. -/
abbrev condFirst (i : grid1.Coords) : Prop := (Scalar.cmpi .ne (Scalar.extui (Scalar.cmpi .eq (BitVec.ofNat 32 (i 1).val) 0#32)) 0#32) = 1#1
/-- It holds exactly at the points ≡ 0 (mod 8). -/
theorem hcondFirst : ∀ t : Fin cfg1.N, condFirst (grid1.coords t) ↔ t.val % 8 = 0 :=
  (by decide +kernel : ∀ t : Fin grid1.N, condFirst (grid1.coords t) ↔ t.val % 8 = 0)

/-- `k = 7`, as the body computes it. -/
abbrev condLast (i : grid1.Coords) : Prop := k1_cond2 i = 1#1
/-- It holds exactly at the points ≡ 7 (mod 8). -/
theorem hcondLast : ∀ t : Fin cfg1.N, condLast (grid1.coords t) ↔ t.val % 8 = 7 :=
  (by decide +kernel : ∀ t : Fin grid1.N, condLast (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Where `k ≠ 7` the body stores nothing into the output block, and the block is not written back there. -/
theorem idleAt1_2 : ∀ t : Fin cfg1.N, ¬condLast (grid1.coords t) → cfg1.idle 2 (grid1.coords t) = true := by decide +kernel
theorem noFlush1_2 : ∀ t : Fin cfg1.N, ¬condLast (grid1.coords t) → (cfg1.win 2).flush t = false := by decide +kernel
/-- Where `k = 7` it stores the block whole. -/
theorem liveAt1_2 : ∀ t : Fin cfg1.N, condLast (grid1.coords t) → cfg1.idle 2 (grid1.coords t) = false := by decide +kernel

/-! ## The staging memrefs and the scratch -/

abbrev ms1_0 (t : Fin cfg1.N) : Memref sig .tc .vmem S2048x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .bf16 := win1_2.stage (cfg1.slots t 2)
abbrev hs1_2 (t : Fin cfg1.N) : (ms1_2 t).IsWhole := hstage1_2 ((cfg1.slots t 2).cast nbuf1_2)
/-- The scratch column the kernel carries between points: a whole scoped buffer of its own. -/
abbrev scM : Memref sig .tc .vmem S2048x1 .f32 := Memref.whole cc1_scratch0

/-- A scoped buffer held whole at some contents. -/
abbrev anyAt (c : Dev nD) (b : Ref sig .tc) : sProp 𝕄 :=
  iprop(∃ f : Buf (Elt F) ((c : Thread nD τ).loc b), ((c : Thread nD τ).loc b) ↦{fullShare} f)

/-- The invariant that carries only the scoped rest and the generator register, with the scratch as a memref owned at
    some contents: the first pallas_call's four staging buffers, the scratch, the register. -/
theorem PhiA1_eq (c : Dev nD) :
    (Pipeline.ΦA spec1 c : sProp 𝕄)
      = iprop(iprop(anyAt c cc0_stg0_0 ∗ anyAt c cc0_stg0_1 ∗ anyAt c cc0_stg1_0 ∗ anyAt c cc0_stg1_1 ∗ (∃ d, owns (c : Thread nD τ) scM fullShare d)) ∗ (∃ r, prngReg c r)) := by
  unfold Pipeline.ΦA; rw [scopedRest1_eq]; simp only [scM, owns_whole]; try rfl

/-! ## The body's triple, case by case -/

set_option maxHeartbeats 2000000 in
/-- `k = 0`: whatever the scratch held, it ends at `step X R zero`; the output's buffer is handed back as found. -/
theorem run_first (c : Dev nD) (E : Set ℕ) (i : grid1.Coords)
    (arg2 : Memref sig .tc .vmem S2048x512 .f32) (harg2 : arg2.IsWhole) (arg3 : Memref sig .tc .vmem S1x512 .f32) (harg3 : arg3.IsWhole)
    (arg4 : Memref sig .tc .vmem S2048x1 .bf16) (harg4 : arg4.IsWhole) (arg5 : Memref sig .tc .vmem S2048x1 .f32) (harg5 : arg5.IsWhole)
    (hf : condFirst i) (hl : ¬condLast i)
    (x0 : Vec F S2048x512 .f32) (x1 : Vec F S1x512 .f32) (xi : Vec F S2048x1 .bf16) (K : PUnit → sProp 𝕄) :
    iprop(owns (c : Thread nD τ) arg2 fullShare x0 ∗ owns (c : Thread nD τ) arg3 fullShare x1 ∗ owns (c : Thread nD τ) arg4 fullShare xi
        ∗ (∃ d, owns (c : Thread nD τ) arg5 fullShare d)
        ∗ (iprop(owns (c : Thread nD τ) arg2 fullShare x0 ∗ owns (c : Thread nD τ) arg3 fullShare x1 ∗ owns (c : Thread nD τ) arg4 fullShare xi
            ∗ owns (c : Thread nD τ) arg5 fullShare (k1_pay2 x0 x1 (k1_pay1 (F := F)))) -∗ K ⟨⟩))
      ⊢ wp frame (wpE (defs₀ (F := F)) Variants.none c none) E (cc1__matvec_kernel i arg2 harg2 arg3 harg3 arg4 harg4 arg5 harg5) K := by
  simp only [cc1__matvec_kernel_eq_skeleton]; unfold cc1__matvec_kernel_skel
  unfold owns
  iintro ⟨⟨%f0, %hf0, H0⟩, ⟨%f1, %hf1, H1⟩, ⟨%f4, %hf4, H4⟩, ⟨%d5, %f5, -, H5⟩, Hk⟩
  obtain rfl := harg2.eq_unread hf0; obtain rfl := harg3.eq_unread hf1; obtain rfl := harg4.eq_unread hf4
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact harg4.read_unread _
    iexact H4
  iexists _; isplitr
  swap; · iexact H5
  ipureintro
  sl_unfold_run_names
  rw [View.read_writes_whole_last arg5.view _ Cert.Lib.zeros2, View.readCov_whole_last arg5.view Cert.Lib.zeros2,
    View.readAt_whole arg2.view _ Cert.Lib.zeros2, View.readAt_whole arg3.view _ Cert.Lib.zeros2, hf0, hf1]

set_option maxHeartbeats 2000000 in
/-- `0 < k < 7`: the scratch `s` ends at `step X R s`; the output's buffer is handed back as found. -/
theorem run_mid (c : Dev nD) (E : Set ℕ) (i : grid1.Coords)
    (arg2 : Memref sig .tc .vmem S2048x512 .f32) (harg2 : arg2.IsWhole) (arg3 : Memref sig .tc .vmem S1x512 .f32) (harg3 : arg3.IsWhole)
    (arg4 : Memref sig .tc .vmem S2048x1 .bf16) (harg4 : arg4.IsWhole) (arg5 : Memref sig .tc .vmem S2048x1 .f32) (harg5 : arg5.IsWhole)
    (hf : ¬condFirst i) (hl : ¬condLast i)
    (x0 : Vec F S2048x512 .f32) (x1 : Vec F S1x512 .f32) (xi : Vec F S2048x1 .bf16) (s : Vec F S2048x1 .f32) (K : PUnit → sProp 𝕄) :
    iprop(owns (c : Thread nD τ) arg2 fullShare x0 ∗ owns (c : Thread nD τ) arg3 fullShare x1 ∗ owns (c : Thread nD τ) arg4 fullShare xi
        ∗ owns (c : Thread nD τ) arg5 fullShare s
        ∗ (iprop(owns (c : Thread nD τ) arg2 fullShare x0 ∗ owns (c : Thread nD τ) arg3 fullShare x1 ∗ owns (c : Thread nD τ) arg4 fullShare xi
            ∗ owns (c : Thread nD τ) arg5 fullShare (k1_pay2 x0 x1 s)) -∗ K ⟨⟩))
      ⊢ wp frame (wpE (defs₀ (F := F)) Variants.none c none) E (cc1__matvec_kernel i arg2 harg2 arg3 harg3 arg4 harg4 arg5 harg5) K := by
  simp only [cc1__matvec_kernel_eq_skeleton]; unfold cc1__matvec_kernel_skel
  unfold owns
  iintro ⟨⟨%f0, %hf0, H0⟩, ⟨%f1, %hf1, H1⟩, ⟨%f4, %hf4, H4⟩, ⟨%f5, %hf5, H5⟩, Hk⟩
  obtain rfl := harg2.eq_unread hf0; obtain rfl := harg3.eq_unread hf1; obtain rfl := harg4.eq_unread hf4; obtain rfl := harg5.eq_unread hf5
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact harg4.read_unread _
    iexact H4
  iexists _; isplitr
  swap; · iexact H5
  ipureintro
  sl_unfold_run_names
  rw [View.read_writes_whole_last arg5.view _ Cert.Lib.zeros2,
    View.readAt_whole arg2.view _ Cert.Lib.zeros2, View.readAt_whole arg3.view _ Cert.Lib.zeros2,
    View.readAt_whole arg5.view _ Cert.Lib.zeros2, hf0, hf1, hf5]

set_option maxHeartbeats 2000000 in
/-- `k = 7`: the scratch `s` ends at `step X R s`, and the output's buffer, whatever it held, at the payload
    `k1_pay3` of that. -/
theorem run_last (c : Dev nD) (E : Set ℕ) (i : grid1.Coords)
    (arg2 : Memref sig .tc .vmem S2048x512 .f32) (harg2 : arg2.IsWhole) (arg3 : Memref sig .tc .vmem S1x512 .f32) (harg3 : arg3.IsWhole)
    (arg4 : Memref sig .tc .vmem S2048x1 .bf16) (harg4 : arg4.IsWhole) (arg5 : Memref sig .tc .vmem S2048x1 .f32) (harg5 : arg5.IsWhole)
    (hf : ¬condFirst i) (hl : condLast i)
    (x0 : Vec F S2048x512 .f32) (x1 : Vec F S1x512 .f32) (s : Vec F S2048x1 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare s
        ∗ (iprop(owns (c : Thread nD τ) arg2 fullShare x0 ∗ owns (c : Thread nD τ) arg3 fullShare x1
            ∗ owns (c : Thread nD τ) arg4 fullShare (k1_pay3 (k1_pay2 x0 x1 s))
            ∗ owns (c : Thread nD τ) arg5 fullShare (k1_pay2 x0 x1 s)) -∗ K ⟨⟩))
      ⊢ wp frame (wpE (defs₀ (F := F)) Variants.none c none) E (cc1__matvec_kernel i arg2 harg2 arg3 harg3 arg4 harg4 arg5 harg5) K := by
  simp only [cc1__matvec_kernel_eq_skeleton]; unfold cc1__matvec_kernel_skel
  unfold owns
  iintro ⟨⟨%f0, %hf0, H0⟩, ⟨%f1, %hf1, H1⟩, ⟨%d4, %f4, -, H4⟩, ⟨%f5, %hf5, H5⟩, Hk⟩
  obtain rfl := harg2.eq_unread hf0; obtain rfl := harg3.eq_unread hf1; obtain rfl := harg5.eq_unread hf5
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    sl_unfold_run_names
    rw [View.read_writes_whole_last arg4.view _ Cert.Lib.zeros2, View.readCov_whole_last arg5.view Cert.Lib.zeros2,
      View.readAt_whole arg2.view _ Cert.Lib.zeros2, View.readAt_whole arg3.view _ Cert.Lib.zeros2,
      View.readAt_whole arg5.view _ Cert.Lib.zeros2, hf0, hf1, hf5]
  iexists _; isplitr
  swap; · iexact H5
  ipureintro
  sl_unfold_run_names
  rw [View.read_writes_whole_last arg5.view _ Cert.Lib.zeros2,
    View.readAt_whole arg2.view _ Cert.Lib.zeros2, View.readAt_whole arg3.view _ Cert.Lib.zeros2,
    View.readAt_whole arg5.view _ Cert.Lib.zeros2, hf0, hf1, hf5]

/-! ## The scratch after each point -/

/-- What the scratch column holds after the body at position `n`: where `k = 0` one step from `zero`, elsewhere one
    step from what the point before left. -/
def accAt (c : Dev nD) : (n : ℕ) → n < cfg1.N → Vec F S2048x1 .f32
  | 0, hn => k1_pay2 (blk1 V c 0 ⟨0, hn⟩) (blk1 V c 1 ⟨0, hn⟩) (k1_pay1 (F := F))
  | n + 1, hn =>
    if (n + 1) % 8 = 0 then k1_pay2 (blk1 V c 0 ⟨n + 1, hn⟩) (blk1 V c 1 ⟨n + 1, hn⟩) (k1_pay1 (F := F))
    else k1_pay2 (blk1 V c 0 ⟨n + 1, hn⟩) (blk1 V c 1 ⟨n + 1, hn⟩) (accAt c n (Nat.lt_of_succ_lt hn))

/-- At a point with `k = 0` the accumulation restarts. -/
theorem accAt_first (c : Dev nD) (t : Fin cfg1.N) (h : t.val % 8 = 0) :
    accAt V c t.val t.isLt = k1_pay2 (blk1 V c 0 t) (blk1 V c 1 t) (k1_pay1 (F := F)) := by
  obtain ⟨n, hn⟩ := t
  cases n with
  | zero => rfl
  | succ n => exact if_pos h

/-- At any other point it continues from the point before. -/
theorem accAt_next (c : Dev nD) (t : Fin cfg1.N) (h : ¬t.val % 8 = 0) :
    accAt V c t.val t.isLt = k1_pay2 (blk1 V c 0 t) (blk1 V c 1 t) (accAt V c (t.val - 1) (Nat.lt_of_le_of_lt (Nat.sub_le _ _) t.isLt)) := by
  obtain ⟨n, hn⟩ := t
  cases n with
  | zero => exact absurd (Nat.zero_mod 8) h
  | succ n => exact if_neg h

/-! ## The region's invariant -/

/-- Before position `n`: at the first point the scoped rest at anything and the generator register; afterwards the same
    with the scratch column at what the point before left in it. -/
def PhiS (c : Dev nD) : (n : ℕ) → n ≤ cfg1.N → sProp 𝕄
  | 0, _ => Pipeline.ΦA spec1 c
  | n + 1, hn => iprop(iprop(anyAt c cc0_stg0_0 ∗ anyAt c cc0_stg0_1 ∗ anyAt c cc0_stg1_0 ∗ anyAt c cc0_stg1_1 ∗ owns (c : Thread nD τ) scM fullShare (accAt V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(anyAt c cc0_stg0_0 ∗ anyAt c cc0_stg0_1 ∗ anyAt c cc0_stg1_0 ∗ anyAt c cc0_stg1_1 ∗ owns (c : Thread nD τ) scM fullShare (accAt V c n hn)) ∗ (∃ r, prngReg c r)) := rfl

theorem PhiS_pos (c : Dev nD) (n : ℕ) (h : n ≤ cfg1.N) (hz : n ≠ 0) :
    PhiS V c n h = iprop(iprop(anyAt c cc0_stg0_0 ∗ anyAt c cc0_stg0_1 ∗ anyAt c cc0_stg1_0 ∗ anyAt c cc0_stg1_1 ∗ owns (c : Thread nD τ) scM fullShare (accAt V c (n - 1) (by omega))) ∗ (∃ r, prngReg c r)) := by
  cases n with
  | zero => exact absurd rfl hz
  | succ n => rfl

/-! ## The region's proof data -/

/-- The arrays as the region finds them; after the body at point `t` each input's buffer at its block and the output's
    at the payload `k1_pay3` of the scratch (consulted only where `k = 7`); the invariant `PhiS`; nothing owed; full
    shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => k1_pay3 (accAt V c t.val t.isLt)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = k1_pay3 (accAt V c t.val t.isLt) := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the closed forms say which of the three cases the
    point is in; the invariant hands the body the scratch at what the point before left (at anything where `k = 0`) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 64 := lt_of_lt_of_eq t.isLt (show cfg1.N = 64 from N_1)
  by_cases h0 : t.val % 8 = 0
  · have hl : ¬t.val % 8 = 7 := by omega
    rw [Dat.leavesExact_idle (dat1 V c) 2 t (idleAt1_2 t (fun h => hl ((hcondLast t).mp h))) (noFlush1_2 t (fun h => hl ((hcondLast t).mp h)))]
    rw [accAt_first V c t h0]
    by_cases hz : t.val = 0
    · rw [PhiS_castSucc V c t, PhiS_zero V c _ _ hz, PhiA1_eq]
      iintro ⟨⟨⟨HA, HB, HC, HD, HS⟩, Hg⟩, Ho, ⟨%d0, H0⟩, ⟨%d1, H1⟩, ⟨%d2, H2⟩⟩
      iapply (run_first c Set.univ (grid1.coords t) _ _ _ _ _ _ _ _ ((hcondFirst t).mpr h0) (fun h => hl ((hcondLast t).mp h)) (blk1 V c 0 t) (blk1 V c 1 t) ((dat1 V c).before 2 t d2) _)
      isplitl [H0]; · iexact H0
      isplitl [H1]; · iexact H1
      isplitl [H2]; · iexact H2
      isplitl [HS]; · iexact HS
      iintro ⟨H0, H1, H2, HS⟩
      isplitl [HA HB HC HD HS Hg]
      · isplitl [HA HB HC HD HS]
        · isplitl [HA]; · iexact HA
          isplitl [HB]; · iexact HB
          isplitl [HC]; · iexact HC
          isplitl [HD]; · iexact HD
          iexact HS
        iexact Hg
      isplitl [Ho]; · iexact Ho
      isplitl [H0]; · iexact H0
      isplitl [H1]; · iexact H1
      iexists _; iexact H2
    · rw [PhiS_castSucc V c t, PhiS_pos V c _ _ hz]
      iintro ⟨⟨⟨HA, HB, HC, HD, HS⟩, Hg⟩, Ho, ⟨%d0, H0⟩, ⟨%d1, H1⟩, ⟨%d2, H2⟩⟩
      iapply (run_first c Set.univ (grid1.coords t) _ _ _ _ _ _ _ _ ((hcondFirst t).mpr h0) (fun h => hl ((hcondLast t).mp h)) (blk1 V c 0 t) (blk1 V c 1 t) ((dat1 V c).before 2 t d2) _)
      isplitl [H0]; · iexact H0
      isplitl [H1]; · iexact H1
      isplitl [H2]; · iexact H2
      isplitl [HS]; · iexists _; iexact HS
      iintro ⟨H0, H1, H2, HS⟩
      isplitl [HA HB HC HD HS Hg]
      · isplitl [HA HB HC HD HS]
        · isplitl [HA]; · iexact HA
          isplitl [HB]; · iexact HB
          isplitl [HC]; · iexact HC
          isplitl [HD]; · iexact HD
          iexact HS
        iexact Hg
      isplitl [Ho]; · iexact Ho
      isplitl [H0]; · iexact H0
      isplitl [H1]; · iexact H1
      iexists _; iexact H2
  · have hz : t.val ≠ 0 := fun e => h0 (by rw [e])
    by_cases h1 : t.val % 8 = 7
    · rw [show (dat1 V c).leavesExact 2 t = owns (c : Thread nD τ) (ms1_2 t) fullShare ((dat1 V c).after 2 t) from by
        unfold Dat.leavesExact; rw [liveAt1_2 t ((hcondLast t).mpr h1)], after1_2]
      rw [accAt_next V c t h0]
      rw [PhiS_castSucc V c t, PhiS_pos V c _ _ hz]
      iintro ⟨⟨⟨HA, HB, HC, HD, HS⟩, Hg⟩, Ho, ⟨%d0, H0⟩, ⟨%d1, H1⟩, ⟨%d2, H2⟩⟩
      iapply (run_last c Set.univ (grid1.coords t) _ _ _ _ _ _ _ _ (fun h => h0 ((hcondFirst t).mp h)) ((hcondLast t).mpr h1) (blk1 V c 0 t) (blk1 V c 1 t) _ _)
      isplitl [H0]; · iexact H0
      isplitl [H1]; · iexact H1
      isplitl [H2]; · iexists _; iexact H2
      isplitl [HS]; · iexact HS
      iintro ⟨H0, H1, H2, HS⟩
      isplitl [HA HB HC HD HS Hg]
      · isplitl [HA HB HC HD HS]
        · isplitl [HA]; · iexact HA
          isplitl [HB]; · iexact HB
          isplitl [HC]; · iexact HC
          isplitl [HD]; · iexact HD
          iexact HS
        iexact Hg
      isplitl [Ho]; · iexact Ho
      isplitl [H0]; · iexact H0
      isplitl [H1]; · iexact H1
      iexact H2
    · rw [Dat.leavesExact_idle (dat1 V c) 2 t (idleAt1_2 t (fun h => h1 ((hcondLast t).mp h))) (noFlush1_2 t (fun h => h1 ((hcondLast t).mp h)))]
      rw [accAt_next V c t h0]
      rw [PhiS_castSucc V c t, PhiS_pos V c _ _ hz]
      iintro ⟨⟨⟨HA, HB, HC, HD, HS⟩, Hg⟩, Ho, ⟨%d0, H0⟩, ⟨%d1, H1⟩, ⟨%d2, H2⟩⟩
      iapply (run_mid c Set.univ (grid1.coords t) _ _ _ _ _ _ _ _ (fun h => h0 ((hcondFirst t).mp h)) (fun h => h1 ((hcondLast t).mp h)) (blk1 V c 0 t) (blk1 V c 1 t) ((dat1 V c).before 2 t d2) _ _)
      isplitl [H0]; · iexact H0
      isplitl [H1]; · iexact H1
      isplitl [H2]; · iexact H2
      isplitl [HS]; · iexact HS
      iintro ⟨H0, H1, H2, HS⟩
      isplitl [HA HB HC HD HS Hg]
      · isplitl [HA HB HC HD HS]
        · isplitl [HA]; · iexact HA
          isplitl [HB]; · iexact HB
          isplitl [HC]; · iexact HC
          isplitl [HD]; · iexact HD
          iexact HS
        iexact Hg
      isplitl [Ho]; · iexact Ho
      isplitl [H0]; · iexact H0
      isplitl [H1]; · iexact H1
      iexists _; iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-! ## Into the invariant and out of it -/

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives the launch's form back: what the scratch holds is forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HA, HB, HC, HD, HS⟩, Hg⟩
  isplitl [HA HB HC HD HS]
  · isplitl [HA]; · iexact HA
    isplitl [HB]; · iexact HB
    isplitl [HC]; · iexact HC
    isplitl [HD]; · iexact HD
    iexists _; iexact HS
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Frm

end
-- ==== Proof.KernelIdealRun.lean ====
/-
  The whole run of `KernelIdeal`: @main as three segments — the first pallas_call, the host reshape of its `[4096, 1]` result
  into a `[1, 4096]` row, the second pallas_call — and the contents of every unscoped buffer at each boundary between
  them, folded from the launch memory:

    `Wl`  at launch;
    `Wa`  after the first pallas_call: its arrays at what its write-backs leave, every other buffer as before;
    `Wb`  after the reshape;
    `Wc`  after the second pallas_call: its arrays at what its write-backs leave, every other buffer as before.

  Each pallas_call is a region whose thread state is "every unscoped buffer at the boundary's contents, the generator
  register at some state, nothing owed"; its arrays are split out of the unscoped buffers at entry and put back at
  exit. The run theorem `run_all` says every weakly fair execution terminates with every unscoped buffer at `Wc`; the two
  argument arrays are read back through the fold to their launch contents (no segment writes them), and the result
  array is what the second region's write-backs leave.
-/
import proofs.«121458_j88940182766071_2_alg».proof.Proof.KernelIdealRegion1

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev Wl : Dev nD → Valuation τ sig (Elt F) := fun c b => m (c, b)
/-- The same read at the TensorCore's references: what the first region's proof data take. -/
abbrev Vl : (c : Dev nD) → (b : Ref sig .tc) → Buf (Elt F) ((c : Thread nD τ).loc b) := fun c b => Wl m c b

/-- After the first region: its arrays at what the pipeline leaves, every other buffer as entered. -/
def Wa (c : Dev nD) : Valuation τ sig (Elt F) :=
  Pipeline.withArrays spec0 c (Wl m c) fun w => (dat0 (Vl m) c).arrAt w cfg0.N
theorem Wa_arr (c : Dev nD) (w : Fin cfg0.W) :
    Wa m c (Proc.devRef .tc (Pipeline.arrRef spec0 w)) = (dat0 (Vl m) c).arrAt w cfg0.N := by
  unfold Wa; exact Pipeline.withArrays_arr spec0 launch0.win.arr_inj c _ _ w
theorem Wa_of_ne (c : Dev nD) (b : Ref sig .tc) (hb : ∀ w, Pipeline.arrRef spec0 w ≠ b) :
    Wa m c (Proc.devRef .tc b) = Wl m c (Proc.devRef .tc b) := by
  unfold Wa; exact Pipeline.withArrays_of_ne spec0 c _ _ b hb
abbrev Va : (c : Dev nD) → (b : Ref sig .tc) → Buf (Elt F) ((c : Thread nD τ).loc b) := fun c b => Wa m c b
theorem hF0 (c : Dev nD) (w : Fin cfg0.W) : (dat0 (Vl m) c).arrAt w cfg0.N = Va m c (Pipeline.arrRef spec0 w) :=
  (Wa_arr m c w).symm
theorem hrest0 (c : Dev nD) : ∀ b, b ∉ Finset.univ.image (Pipeline.arrRef spec0) → Va m c b = Vl m c b :=
  fun b hb => Wa_of_ne m c b fun w e => hb (Finset.mem_image.mpr ⟨w, Finset.mem_univ _, e⟩)

/-- After the reshape (the second region's entry). -/
abbrev Wb : Dev nD → Valuation τ sig (Elt F) := fun c => StableHlo.after hostOps1 (Wa m c)
abbrev Vb : (c : Dev nD) → (b : Ref sig .tc) → Buf (Elt F) ((c : Thread nD τ).loc b) := fun c b => Wb m c b

/-- After the second region: its arrays at what the pipeline leaves, every other buffer as entered. -/
def Wc (c : Dev nD) : Valuation τ sig (Elt F) :=
  Pipeline.withArrays spec1 c (Wb m c) fun w => (dat1 (Vb m) c).arrAt w cfg1.N
theorem Wc_arr (c : Dev nD) (w : Fin cfg1.W) :
    Wc m c (Proc.devRef .tc (Pipeline.arrRef spec1 w)) = (dat1 (Vb m) c).arrAt w cfg1.N := by
  unfold Wc; exact Pipeline.withArrays_arr spec1 launch1.win.arr_inj c _ _ w
theorem Wc_of_ne (c : Dev nD) (b : Ref sig .tc) (hb : ∀ w, Pipeline.arrRef spec1 w ≠ b) :
    Wc m c (Proc.devRef .tc b) = Wb m c (Proc.devRef .tc b) := by
  unfold Wc; exact Pipeline.withArrays_of_ne spec1 c _ _ b hb
abbrev Vc : (c : Dev nD) → (b : Ref sig .tc) → Buf (Elt F) ((c : Thread nD τ).loc b) := fun c b => Wc m c b
theorem hF1 (c : Dev nD) (w : Fin cfg1.W) : (dat1 (Vb m) c).arrAt w cfg1.N = Vc m c (Pipeline.arrRef spec1 w) :=
  (Wc_arr m c w).symm
theorem hrest1 (c : Dev nD) : ∀ b, b ∉ Finset.univ.image (Pipeline.arrRef spec1) → Vc m c b = Vb m c b :=
  fun b hb => Wc_of_ne m c b fun w e => hb (Finset.mem_image.mpr ⟨w, Finset.mem_univ _, e⟩)

/-- The reshape writes its own result buffer only. -/
theorem Wb_of_ne (c : Dev nD) (b : Ref sig .tc) (hb : b ≠ main_v1) :
    Wb m c (Proc.devRef .tc b) = Wa m c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-! ### The arguments end as launched -/

/-- The activations: an input of the second region, no array of the first, not written by the reshape. -/
theorem Wc_main_arg0 (c : Dev nD) : Wc m c (Proc.devRef .tc main_arg0) = m ((c : Thread nD τ).loc main_arg0) :=
  calc Wc m c (Proc.devRef .tc main_arg0)
    _ = Wb m c (Proc.devRef .tc main_arg0) := (Wc_arr m c 0).trans (((dat1 (Vb m) c).arrAt_in 0 rfl _).trans (A_eq1 (Vb m) c 0))
    _ = Wa m c (Proc.devRef .tc main_arg0) := Wb_of_ne m c main_arg0 (by decide)
    _ = Wl m c (Proc.devRef .tc main_arg0) := Wa_of_ne m c main_arg0 (by decide)
    _ = m ((c : Thread nD τ).loc main_arg0) := rfl

/-- The weights: an input of the first region, then touched by nothing. -/
theorem Wc_main_arg1 (c : Dev nD) : Wc m c (Proc.devRef .tc main_arg1) = m ((c : Thread nD τ).loc main_arg1) :=
  calc Wc m c (Proc.devRef .tc main_arg1)
    _ = Wb m c (Proc.devRef .tc main_arg1) := Wc_of_ne m c main_arg1 (by decide)
    _ = Wa m c (Proc.devRef .tc main_arg1) := Wb_of_ne m c main_arg1 (by decide)
    _ = Wl m c (Proc.devRef .tc main_arg1) := (Wa_arr m c 0).trans (((dat0 (Vl m) c).arrAt_in 0 rfl _).trans (A_eq0 (Vl m) c 0))
    _ = m ((c : Thread nD τ).loc main_arg1) := rfl

/-! ## The proof data family and the thread state -/

/-- No pallas_call has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (Vl m) c
  | ⟨1, _⟩ => fun c => dat1 (Vb m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The reshape allocates nothing. -/
theorem reshape_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tend (c : Dev nD) : sProp 𝕄 := iprop(StableHlo.held (c : Thread nD τ) (Pipeline.ucRefs τ sig) (Wc m c) ∗ ∃ r, prngReg c r)

/-! ## The regions as segments -/

set_option backward.isDefEq.respectTransparency.types false in
/-- The first pallas_call over the thread state: entered from every unscoped buffer at `Wl`, left at `Wa`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vl m) c).loose
  hwaits := Pipeline.hwaits_of_owed_zero _ _ _ _ L lv 0 fun _ _ => rfl
  pre c := iprop(StableHlo.held (c : Thread nD τ) (Pipeline.ucRefs τ sig) (Wl m c) ∗ R c)
  post c := iprop(StableHlo.held (c : Thread nD τ) (Pipeline.ucRefs τ sig) (Wa m c) ∗ R c)
  X c := iprop(∃ r, prngReg c r)
  Y c := iprop(∃ r, prngReg c r)
  Z c := Pipeline.unscopedRest (Ix := Unit) (Name := ℕ) (U := UR sig nD τ) (Lvl := ℕ) spec0 c (Vl m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vl m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vl m c) (Va m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call over the thread state: entered from every unscoped buffer at `Wb`, left at `Wc`. The
    generator register and the scoped rest enter the region's invariant at its first point; after the last point the
    invariant gives them back, the scratch column's contents forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vb m) c).loose
  hwaits := Pipeline.hwaits_of_owed_zero _ _ _ _ L lv 1 fun _ _ => rfl
  pre c := iprop(StableHlo.held (c : Thread nD τ) (Pipeline.ucRefs τ sig) (Wb m c) ∗ R c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vb m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vb m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = (dat1 (Vb m) c).Φ (Fin.last cfg1.N) from rfl]
    have h := hout1 (Vb m) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vb m c) (Vc m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

/-- @main's three segments in order. -/
abbrev segs : List (Pipeline.Seg (pcfgs (F := F)) adm (pdats m) () defs₀ 𝒱₀ L lv) :=
  [ .region (reg0 m),
    .host (hseg hostOps1 hostOps1_sub reshape_fresh (Wa m)),
    .region (reg1 m) ]
/-- @main is the run of the segments. -/
theorem main_run (c : Dev nD) : main (F := F) c = Pipeline.Seg.run (segs m) := (main_chain c).trans (by chain_rfl)

variable (ρ : Dev nD → PrngReg)

set_option backward.isDefEq.respectTransparency.types false in
/-- THE RUN. From any memory with zero counters every weakly fair execution of @main terminates, nothing faulting, and
    every final state holds every unscoped buffer at the last boundary's contents `Wc`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wc m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wl m c) ∗ R c)) (Tₙ := Tend m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wl m c)
        from Pipeline.unscopedBufs_held c (Wl m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wc m c b)
    (hfin := fun c s' => by
      iintro ⟨⟨Hh, -⟩, HSI⟩
      unfold StableHlo.held
      imodintro
      iapply (pointsTo_read_all (Pipeline.ucRefs τ sig) (fun b => (((c : Thread nD τ)).1, b)) (Wc m c) s')
      isplitl [Hh] <;> iassumption)
    (hQ := fun s h => h)

/-- THE FRAME: every weakly fair execution terminates, nothing faulting, with both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (Wc_main_arg0 m c),
     (h c _ (mem_uc main_arg1 (by decide))).trans (Wc_main_arg1 m c)⟩) (run_all m ρ)

/-- The same run with the result array named: what the second region's write-backs leave in it. -/
theorem run_named : θ_run defs (onTc (τ := τ) (main (F := F))) ⟨m, fun _ => 0, ρ⟩ (fun r => ∀ c : Dev nD,
      r.2.mem ((c.tc : Thread nD τ).loc main_v2) = (dat1 (Vb m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v2 (by decide))).trans (Wc_arr m c 2),
     (h c _ (mem_uc main_arg0 (by decide))).trans (Wc_main_arg0 m c),
     (h c _ (mem_uc main_arg1 (by decide))).trans (Wc_main_arg1 m c)⟩) (run_all m ρ)

end Cert.KernelIdeal.Frm

end
-- ==== Proof.MatvecSpec.lean ====
/-
  The function both programs compute, written once, over the extended reals.

  For an activation array `x : [16384, 4096]` and a weight array `w : [4096, 4096]` the result at row `r` is

      out r = (∑ k, x r k · (∑ n, w k n)) · ½ .

  This is the arrangement the kernel uses: the weights are first summed along their hidden axis (one number per
  input feature), and each row of `x` is then contracted against that vector. The reference contracts `x` against
  `w` first and sums the product matrix along the hidden axis afterwards; the two agree wherever every entry is a real
  number, because a real factor moves across a finite sum and two finite sums commute.
-/
import Idealize.ShloMosaic.PureOps.Ideal
import Idealize.ShloMosaic.Lib.ValueIdx

noncomputable section

namespace Cert.MatvecSpec

open Idealize.ShloMosaic Idealize.ShloMosaic.ValueIdx

/-- The activations' shape, the weights' shape and the result's shape, as literals. -/
abbrev SX : Shape := ⟨2, ![16384, 4096]⟩
abbrev SW : Shape := ⟨2, ![4096, 4096]⟩
abbrev SO : Shape := ⟨2, ![16384, 1]⟩

/-- The scale ½, kept as the binary word both programs print. -/
abbrev half : EReal := Ideal.ofBits .f32 0x3F000000#32

/-- The weights summed along the hidden axis: one number per input feature. -/
def colSum (w : SW.Idx → EReal) (k : Fin 4096) : EReal := ∑ n : Fin 4096, w (ix2 k n)

/-- Row `r` of `x` contracted against the summed weights. -/
def rowDot (x : SX.Idx → EReal) (w : SW.Idx → EReal) (r : Fin 16384) : EReal :=
  ∑ k : Fin 4096, x (ix2 r k) * colSum w k

/-- The result array: the contracted row, scaled by ½. -/
def out (x : SX.Idx → EReal) (w : SW.Idx → EReal) : SO.Idx → EReal :=
  fun i => rowDot x w (i 0) * half

/-- Every entry of an array is a real number (neither infinity). -/
def AllReal {S : Shape} (f : S.Idx → EReal) : Prop := ∀ j, ∃ r : ℝ, f j = (r : EReal)

end Cert.MatvecSpec

end
-- ==== Proof.LibColumns.lean ====
/-
  General lemmas, none about a particular kernel.

  (1) The "keepdims" column forms of two layout operations, read at an index: an [a,1] column repeated along b lanes
      (`vector.broadcast` of a per-row scalar over a row), and an [a] vector seen as an [a,1] column (`vector.shape_cast`
      after a lane reduction with keepdims).
  (2) Two re-indexings of finite sums over any commutative monoid: a sum over a·b consecutive naturals cut into a runs
      of b, and a sum over the index of a rank-one shape as the sum over its coordinate.
-/
import Idealize.ShloMosaic.Lib.Pipeline.Value
import Idealize.ShloMosaic.Lib.ValueIdx

namespace Cert.Lib

open Idealize.ShloMosaic Idealize.ShloMosaic.ValueIdx

/-- An [a,1] column repeated along b lanes reads, at (p, c), the column at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => show (0 : ℕ) = if (1 : ℕ) = 1 then 0 else c.val; rw [if_pos rfl]

/-- An [a] vector seen as an [a,1] column reads, at (p, 0), the vector at p. -/
theorem shapeCast_a_a1_apply {α : Type} {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_one, Shape.rowMajor_val_two]
    show p.val = p.val * 1 + u.val
    omega)

/-- A sum over a·b consecutive naturals, cut into a runs of b. -/
theorem sum_range_mul {M : Type*} [AddCommMonoid M] (f : ℕ → M) (a b : ℕ) :
    ∑ n ∈ Finset.range (a * b), f n = ∑ t ∈ Finset.range a, ∑ r ∈ Finset.range b, f (t * b + r) := by
  induction a with
  | zero => simp
  | succ a ih => rw [Nat.succ_mul, Finset.sum_range_add, ih, Finset.sum_range_succ]

/-- A sum over a rank-one index is the sum over its coordinate. -/
theorem sum_idx1 {M : Type*} [AddCommMonoid M] {n : ℕ} (f : (⟨1, ![n]⟩ : Shape).Idx → M) :
    ∑ j : (⟨1, ![n]⟩ : Shape).Idx, f j = ∑ a : Fin n, f (ix1 a) :=
  let e : (⟨1, ![n]⟩ : Shape).Idx ≃ Fin n := ⟨fun j => j 0, ix1, fun j => (eq_ix1 j).symm, fun _ => rfl⟩
  Fintype.sum_equiv e _ _ fun j => congrArg f (eq_ix1 j)

end Cert.Lib
-- ==== Proof.LibRowReduce.lean ====
/-
  General lemmas, none about a particular program: the reductions of an [a, b] array along its lanes (the last axis),
  read at a row, at the exact (extended-real) instance — in the spelling a kernel body uses (`vector.multi_reduction`)
  and in the spelling a host program uses (`stablehlo.reduce`) — and a per-row vector spread over the lanes of an
  [a, b] array by two `broadcast_in_dim`s, read at an index.

  * The maximum: both spellings are the fold of `max` over the row's `b` entries from the initial value.
  * The sum: the kernel's is the sum of the row's entries; the host's is the initial value plus that sum.
  * `[a] → [a, 1] → [a, b]`: entry (r, q) is entry r of the vector.
-/
import Idealize.ShloMosaic.Lib.ValueIdx
import Idealize.ShloMosaic.Lib.Pipeline.Value
import Idealize.ShloMosaic.PureOps.Ideal.Laws

noncomputable section

open scoped BigOperators

namespace Cert.Lib

open Idealize.ShloMosaic Idealize.ShloMosaic.ValueIdx

/-- The row index `r` with the lane `k` put back is (r, k). -/
theorem lift_lane {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A kernel's lane maximum at row `r`: the fold of `max` over the row from the accumulator's value. -/
theorem multiReduction_max_lanes {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] (⟨1, ![a]⟩ : Shape) src acc h hφ hacc (ix1 r)
      = (Finset.univ : Finset (Fin b)).fold max (Ideal.ofBits φ acc) (fun k => src (ix2 r k)) := by
  rw [Ideal.multiReduction_maximumf_single]
  have hf : (src ∘ h.lift (ix1 r)) = fun k : Fin b => src (ix2 r k) := funext fun k => congrArg src (lift_lane h r k)
  exact congrArg (fun f => Finset.fold max (Ideal.ofBits φ acc) f (Finset.univ : Finset (Fin b))) hf

/-- A kernel's lane sum at row `r`: the sum of the row's entries. -/
theorem multiReduction_add_lanes {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] (⟨1, ![a]⟩ : Shape) src acc h hφ hacc (ix1 r) = ∑ k : Fin b, src (ix2 r k) := by
  rw [Ideal.multiReduction_add_single]
  exact Finset.sum_congr rfl fun k _ => congrArg src (lift_lane h r k)

/-- The host's reduce with a maximum body along the lanes, at row `r`: the fold of `max` over the row from the
    initial value. -/
theorem hostReduce_max_lanes {a b : ℕ} (x : FVec Ideal ⟨2, ![a, b]⟩ .f32) (init : FVec Ideal ⟨0, ![]⟩ .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x _ h' h hu]
  have hf : (x ∘ h.lift (ix1 r)) = fun k : Fin b => x (ix2 r k) := funext fun k => congrArg x (lift_lane h r k)
  exact congrArg (fun f => Finset.fold max (init (Shape.Idx.first hu)) f (Finset.univ : Finset (Fin b))) hf

/-- The host's float sum along the lanes, at row `r`: the initial value plus the sum of the row's entries. -/
theorem hostReduceAdd_lanes {a b : ℕ} (x : FVec Ideal ⟨2, ![a, b]⟩ .f32) (init : FVec Ideal ⟨0, ![]⟩ .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (r : Fin a) :
    Host.reduceAdd x init h' hu (ix1 r) = init (Shape.Idx.first hu) + ∑ k : Fin b, x (ix2 r k) := by
  simp only [Host.reduceAdd, Ideal.hostReduceAdd_def]
  rw [Ideal.hostReduceAdd_single h' h]
  exact congrArg (_ + ·) (Finset.sum_congr rfl fun k _ => congrArg x (lift_lane h r k))

/-- An [a, 1] column spread over b lanes by `broadcast_in_dim` reads, at (r, q), the column at (r, 0). -/
theorem broadcastInDim_a1_ab_apply {α : Type} {a b : ℕ} (Y : (⟨2, ![a, 1]⟩ : Shape).Idx → α)
    (h2 : (⟨2, ![a, 1]⟩ : Shape).BroadcastsInDim ⟨2, ![a, b]⟩ ![0, 1]) (r : Fin a) (q : Fin b) :
    broadcastInDim ⟨2, ![a, b]⟩ ![0, 1] h2 Y (ix2 r q) = Y (ix2 r (0 : Fin 1)) :=
  broadcastInDim_apply ![0, 1] h2 Y (ix2 r q) (ix2 r (0 : Fin 1)) (fun ax => by
    match ax with
    | ⟨0, _⟩ =>
      show r.val = if a = 1 then 0 else r.val
      split
      · have := r.isLt; omega
      · rfl
    | ⟨1, _⟩ => show 0 = if (1 : Nat) = 1 then 0 else q.val; rw [if_pos rfl])

/-- An [a] vector seen as an [a, 1] column by `broadcast_in_dim` reads, at (r, 0), the vector at r. -/
theorem broadcastInDim_a_a1_apply {α : Type} {a : ℕ} (v : (⟨1, ![a]⟩ : Shape).Idx → α)
    (h1 : (⟨1, ![a]⟩ : Shape).BroadcastsInDim ⟨2, ![a, 1]⟩ ![0]) (r : Fin a) (u : Fin 1) :
    broadcastInDim ⟨2, ![a, 1]⟩ ![0] h1 v (ix2 r u) = v (ix1 r) :=
  broadcastInDim_apply ![0] h1 v (ix2 r u) (ix1 r) (fun ax => by
    match ax with
    | ⟨0, _⟩ =>
      show r.val = if a = 1 then 0 else r.val
      split
      · have := r.isLt; omega
      · rfl)

/-- A per-row vector spread over the lanes by two `broadcast_in_dim`s, `[a] → [a, 1]` along the first axis and
    `[a, 1] → [a, b]`, reads at (r, q) the vector's entry r. -/
theorem broadcastInDim_col_apply {α : Type} {a b : ℕ} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1])
    (r : Fin a) (q : Fin b) :
    broadcastInDim ⟨2, ![a, b]⟩ ![0, 1] h2 (broadcastInDim ⟨2, ![a, 1]⟩ ![0] h1 v) (ix2 r q) = v (ix1 r) :=
  (broadcastInDim_a1_ab_apply _ h2 r q).trans (broadcastInDim_a_a1_apply v h1 r 0)

end Cert.Lib

end
-- ==== Proof.KernelIdealPayloads.lean ====
/-
  The idealized kernel's four pure payloads, read at an index, over the extended reals.

  * The first region's stored column: the lane sums of a `[512, 4096]` block, `∑ n, X p n` at row `p` (a sum along the
    last axis, then the `[512]` vector seen as a `[512, 1]` column; the one whole-shape store leaves its payload, and
    the whole-shape load reads the block).
  * The accumulator's initial value: zero at every row.
  * One accumulation step: `s p + ∑ q, X p q · R 0 q` — the one row `R` spread over the 2048 rows, multiplied entry by
    entry into the block `X`, summed along the lanes and added to the accumulator (the casts to the same shape are the
    identity).
  * The final scaling: `s p · ½`, the change of format to bf16 being the identity over the extended reals.
-/
import proofs.«121458_j88940182766071_2_alg».proof.Proof.KernelIdealRegion0
import proofs.«121458_j88940182766071_2_alg».proof.Proof.MatvecSpec
import proofs.«121458_j88940182766071_2_alg».proof.Proof.LibWholeStore
import proofs.«121458_j88940182766071_2_alg».proof.Proof.LibColumns
import proofs.«121458_j88940182766071_2_alg».proof.Proof.LibRowReduce
import Idealize.ShloMosaic.Lib.ValueLayout

noncomputable section

namespace Cert.KernelIdeal.PayloadValue

open Cert.KernelIdeal Cert.KernelIdeal.Gen Cert.KernelIdeal.Frm Idealize.ShloMosaic Idealize.ShloMosaic.ValueIdx

/-- The lane sums of a `[512, 4096]` block, as a `[512, 1]` column, at row `p`: `∑ n, X p n`. -/
theorem laneSums_apply (X : Vec Ideal S512x4096 .f32) (p : Fin 512) (u : Fin 1) :
    k0_pay1 (F := Ideal) X (ix2 p u) = ∑ n : Fin 4096, X (ix2 p n) := by
  unfold k0_pay1
  refine (Cert.Lib.shapeCast_a_a1_apply _ _ p u).trans ?_
  exact Cert.Lib.multiReduction_add_lanes X _ _ _ _ p

/-- The column the first region's body stores, at row `p`: the sum of row `p` of the loaded block. -/
theorem colOut_apply (X : Vec Ideal S512x4096 .f32) (p : Fin 512) (u : Fin 1) :
    colOut (F := Ideal) X (ix2 p u) = ∑ n : Fin 4096, X (ix2 p n) := by
  unfold colOut
  rw [View.canon_unit_zero Cert.Lib.zeros2, View.ld_unit_zero Cert.Lib.zeros2]
  exact laneSums_apply X p u

/-- The accumulator's initial value is zero at every row. -/
theorem zero_apply (p : Fin 2048) (u : Fin 1) : k1_pay1 (F := Ideal) (ix2 p u) = 0 := by
  unfold k1_pay1
  rw [shapeCast_self, broadcast_apply]
  exact Ideal.ofBits_zero_f32

/-- One accumulation step at row `p`: the accumulator plus the row of `X` contracted against the one row `R`. -/
theorem step_apply (X : Vec Ideal S2048x512 .f32) (R : Vec Ideal S1x512 .f32) (s : Vec Ideal S2048x1 .f32) (p : Fin 2048) (u : Fin 1) :
    k1_pay2 (F := Ideal) X R s (ix2 p u) = s (ix2 p u) + ∑ q : Fin 512, X (ix2 p q) * R (ix2 (0 : Fin 1) q) := by
  unfold k1_pay2
  rw [shapeCast_self, shapeCast_self, addf_apply]
  refine congrArg (s (ix2 p u) + ·) ?_
  refine (Cert.Lib.shapeCast_a_a1_apply _ _ p u).trans ?_
  refine (Cert.Lib.multiReduction_add_lanes _ _ _ _ _ p).trans ?_
  refine Finset.sum_congr rfl fun q _ => ?_
  rw [mulf_apply]
  exact congrArg (X (ix2 p q) * ·) (broadcastTo_1b_ab_apply R _ p q)

/-- The final scaling at row `p`: the accumulator times ½. -/
theorem scaled_apply (s : Vec Ideal S2048x1 .f32) (p : Fin 2048) (u : Fin 1) :
    k1_pay3 (F := Ideal) s (ix2 p u) = s (ix2 p u) * Cert.MatvecSpec.half := by
  unfold k1_pay3
  rw [truncf_apply, mulf_apply, broadcast_apply]
  rfl

end Cert.KernelIdeal.PayloadValue

end
-- ==== Proof.KernelIdealValue0.lean ====
/-
  The value of the first pallas_call, and of the reshape after it, over the extended reals.

  The first pallas_call walks the eight row blocks of the weights: at grid point `t` it loads rows `512·t … 512·t + 511`
  whole and writes back one `[512, 1]` column, the sums of those rows along the hidden axis, into rows
  `512·t … 512·t + 511` of its `[4096, 1]` result. The eight column blocks tile the result (row `r` is in the block of
  point `r / 512`), so the result ends holding, at row `k`, the weights' row `k` summed along the hidden axis.

  The reshape reads that `[4096, 1]` column as a `[1, 4096]` row: entry `(0, k)` of the row and entry `(k, 0)` of the
  column sit at the same flat position `k`.
-/
import proofs.«121458_j88940182766071_2_alg».proof.Proof.KernelIdealRun
import proofs.«121458_j88940182766071_2_alg».proof.Proof.KernelIdealPayloads
import proofs.«121458_j88940182766071_2_alg».proof.Proof.MatvecSpec
import Idealize.ShloMosaic.Lib.Pipeline.Value
import Idealize.ShloMosaic.Lib.StableHlo.Run
import Idealize.ShloMosaic.Lib.ValueIdx

noncomputable section

namespace Cert.KernelIdeal.KValue

open Cert.KernelIdeal Cert.KernelIdeal.Gen Cert.KernelIdeal.Frm Cert.MatvecSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The printed index maps, decided over the eight grid points: at point `t` both windows sit at block `(t, 0)`. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- A grid point is one of eight. -/
theorem point_lt (t : Fin cfg0.N) : t.val < 8 :=
  Nat.lt_of_lt_of_eq t.isLt (show cfg0.N = 8 from N_0)

/-- The weights' block at point `t`, at `(p, n)`: the weights at row `512·t + p`, column `n`. -/
theorem weightsBlock_apply (c : Dev nD) (t : Fin cfg0.N) (p : Fin 512) (n : Fin 4096) (h : t.val * 512 + p.val < 4096) :
    (blk0 (Vl m) c 0 t : Vec Ideal S512x4096 .f32) (ix2 p n)
      = (m ((c : Thread nD τ).loc main_arg1) : S4096x4096.Idx → EReal) (ix2 (⟨t.val * 512 + p.val, h⟩ : Fin 4096) n) := by
  obtain ⟨e0, e1, -, -⟩ := idx_facts0 t
  unfold blk0
  rw [View.read_apply]
  show Vl m c main_arg1 _ = m ((c : Thread nD τ).loc main_arg1) _
  refine congrArg (m ((c : Thread nD τ).loc main_arg1)) (funext fun a => Fin.ext ?_)
  match a with
  | ⟨0, _⟩ => show win0_0.index t (0 : Fin 2) * 512 + 1 * p.val = t.val * 512 + p.val; rw [e0]; omega
  | ⟨1, _⟩ => show win0_0.index t (1 : Fin 2) * 4096 + 1 * n.val = n.val; rw [e1]; omega

/-- The column point `t` leaves, at row `p`: the weights' row `512·t + p` summed along the hidden axis. -/
theorem column_apply (c : Dev nD) (t : Fin cfg0.N) (p : Fin 512) (u : Fin 1) (h : t.val * 512 + p.val < 4096) :
    colOut (F := Ideal) (blk0 (Vl m) c 0 t) (ix2 p u)
      = colSum (m ((c : Thread nD τ).loc main_arg1)) (⟨t.val * 512 + p.val, h⟩ : Fin 4096) := by
  refine (PayloadValue.colOut_apply _ p u).trans ?_
  unfold colSum
  exact Finset.sum_congr rfl fun n _ => weightsBlock_apply m c t p n h

/-- What the result array holds in the end, as one function of the weights: row `k` summed along the hidden axis. -/
abbrev summed (c : Dev nD) : S4096x1.Idx → EReal :=
  fun i => colSum (m ((c : Thread nD τ).loc main_arg1)) (⟨(i 0).val, (i 0).isLt⟩ : Fin 4096)

/-- What point `t` writes back is block `t` of `summed`. -/
theorem flushed_eq (c : Dev nD) (t : Fin cfg0.N) :
    (dat0 (F := Ideal) (Vl m) c).flushed 1 t = ((cfg0.win 1).blk t).view.read (Elt Ideal) (summed m c) := by
  show (cfg0.win 1).cut (grid0.coords t) ((dat0 (F := Ideal) (Vl m) c).after 1 t) = _
  rw [after0_1]
  have key : ∀ y : S512x1.Idx, colOut (F := Ideal) (blk0 (Vl m) c 0 t) y = summed m c (((cfg0.win 1).blk t).view.emb y) := by
    intro y
    obtain ⟨p, u, rfl⟩ : ∃ (p : Fin 512) (u : Fin 1), y = ix2 p u := ⟨y 0, y 1, eq_ix2 y⟩
    have ht := point_lt t
    have h : t.val * 512 + p.val < 4096 := by have := p.isLt; omega
    obtain ⟨-, -, e0, -⟩ := idx_facts0 t
    rw [column_apply m c t p u h]
    refine congrArg (colSum (m ((c : Thread nD τ).loc main_arg1))) (Fin.ext ?_)
    show t.val * 512 + p.val = win0_1.index t (0 : Fin 2) * 512 + 1 * p.val
    rw [e0]; omega
  funext y
  exact key y

/-- An index of the result is in point `t`'s block iff each coordinate is in the block's range on its axis. -/
theorem mem_blk (t : Fin cfg0.N) (i : S4096x1.Idx) :
    i ∈ ((cfg0.win 1).blk t).view.set ↔ ∀ a : Fin 2, win0_1.index t a * S512x1.size a ≤ (i a).val ∧ (i a).val < win0_1.index t a * S512x1.size a + S512x1.size a := by
  show i ∈ ((View.whole main_v0).slice (win0_1.rect t)).set ↔ _
  rw [View.set_slice_whole, Rect.mem_set_unit]
  exact Iff.rfl

/-- Every row of the result is in some point's block: row `r` in the block of point `r / 512`. -/
theorem cover (i : S4096x1.Idx) : ∃ t : Fin cfg0.N, (cfg0.win 1).flush t = true ∧ i ∈ ((cfg0.win 1).blk t).view.set := by
  have hi0 : (i 0).val < 4096 := (i 0).isLt
  have hi1 : (i 1).val < 1 := (i 1).isLt
  obtain ⟨t, ht⟩ : ∃ t : Fin cfg0.N, t.val = (i 0).val / 512 :=
    ⟨⟨(i 0).val / 512, by rw [show cfg0.N = 8 from N_0]; omega⟩, rfl⟩
  obtain ⟨-, -, e0, e1⟩ := idx_facts0 t
  refine ⟨t, flush0_1 t, ?_⟩
  rw [mem_blk]
  intro a
  match a with
  | ⟨0, _⟩ =>
    show win0_1.index t (0 : Fin 2) * 512 ≤ (i 0).val ∧ (i 0).val < win0_1.index t (0 : Fin 2) * 512 + 512
    rw [e0, ht]; omega
  | ⟨1, _⟩ =>
    show win0_1.index t (1 : Fin 2) * 1 ≤ (i 1).val ∧ (i 1).val < win0_1.index t (1 : Fin 2) * 1 + 1
    rw [e1]; omega

/-- The first pallas_call's result array: row `k` holds the weights' row `k` summed along the hidden axis. -/
theorem summed_final (c : Dev nD) :
    (dat0 (F := Ideal) (Vl m) c).arrAt 1 cfg0.N = fun i => colSum (m ((c : Thread nD τ).loc main_arg1)) (i 0) :=
  (dat0 (F := Ideal) (Vl m) c).arrAt_eq_of_cover 1 (summed m c) (fun t _ => flushed_eq m c t) cover

/-- After the reshape, entry `(0, k)` of the `[1, 4096]` row is that sum for feature `k`. -/
theorem summedRow_apply (c : Dev nD) (k : Fin 4096) :
    Vb m c main_v1 (ix2 (0 : Fin 1) k) = colSum (m ((c : Thread nD τ).loc main_arg1)) k := by
  have e : (Vb m c main_v1 : S1x4096.Idx → EReal)
      = shapeCast S1x4096 (Wa m c (Proc.devRef .tc main_v0) : S4096x1.Idx → EReal) shapeCasts_S4096x1_S1x4096 := by
    show StableHlo.after hostOps1 (Wa m c) (Proc.devRef .tc main_v1) = _
    after_results
    rfl
  rw [e]
  refine (shapeCast_apply _ _ (ix2 (0 : Fin 1) k) (ix2 k (0 : Fin 1)) ?_).trans ?_
  · rw [Shape.rowMajor_val_two, Shape.rowMajor_val_two]
    show k.val * 1 + 0 = 0 * 4096 + k.val
    omega
  · have hW : (Wa m c (Proc.devRef .tc main_v0) : S4096x1.Idx → EReal) = (dat0 (F := Ideal) (Vl m) c).arrAt 1 cfg0.N :=
      Wa_arr m c 1
    rw [hW, summed_final m c]
    rfl

end Cert.KernelIdeal.KValue

end
-- ==== Proof.KernelIdealValue1.lean ====
/-
  The value of the second pallas_call at the exact instance: the result array holds, at row `r`,
  `(∑ k, x r k · s k) · ½`, where `s k` is entry `k` of the `[1, 4096]` row the region reads (the summed weights).

  The grid is 8 × 8: point `t` works on row tile `t / 8` (2048 rows) and feature tile `t mod 8` (512 features). The
  scratch column after point `t`, at local row `p`, is the partial contraction of global row `(t / 8)·2048 + p` over the
  features below `(t mod 8 + 1)·512`: it restarts from zero where `t mod 8 = 0` and otherwise adds this tile's 512 terms
  to what the point before left — a sum over consecutive naturals grown one run at a time, so only associativity of the
  sum is used. Where `t mod 8 = 7` all 4096 features are in, and the block written back is that contraction times ½.
  Those eight write-backs tile the `[16384, 1]` result.

  What the row holds is the hypothesis `hrow` of the lemmas below: entry `(0, k)` of the row the region finds is the
  weights' row `k` summed along the hidden axis.
-/
import proofs.«121458_j88940182766071_2_alg».proof.Proof.KernelIdealRun
import proofs.«121458_j88940182766071_2_alg».proof.Proof.KernelIdealPayloads
import proofs.«121458_j88940182766071_2_alg».proof.Proof.MatvecSpec
import Idealize.ShloMosaic.Lib.Pipeline.Value

set_option maxRecDepth 16384

noncomputable section

namespace Cert.KernelIdeal.KValue

open Cert.KernelIdeal Cert.KernelIdeal.Gen Cert.KernelIdeal.Frm Cert.KernelIdeal.PayloadValue Cert.MatvecSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The activations and the weights as launched on core `c`. -/
abbrev xOf (c : Dev nD) : SX.Idx → EReal := m ((c : Thread nD τ).loc main_arg0)
abbrev wOf (c : Dev nD) : SW.Idx → EReal := m ((c : Thread nD τ).loc main_arg1)

/-- Global row of local row `p` in row tile `a`, and global feature of lane `q` in feature tile `b` (tiles taken mod 8,
    so that the bounds hold for any natural). -/
def rowOf (a : ℕ) (p : Fin 2048) : Fin 16384 := ⟨a % 8 * 2048 + p.val, by have := p.isLt; omega⟩
def colOf (b : ℕ) (q : Fin 512) : Fin 4096 := ⟨b % 8 * 512 + q.val, by have := q.isLt; omega⟩

/-- The printed index maps of the three windows, decided over the grid. -/
theorem idx1 : ∀ t : Fin cfg1.N, win1_0.index t (0 : Fin 2) = t.val / 8 ∧ win1_0.index t (1 : Fin 2) = t.val % 8
    ∧ win1_1.index t (0 : Fin 2) = 0 ∧ win1_1.index t (1 : Fin 2) = t.val % 8
    ∧ win1_2.index t (0 : Fin 2) = t.val / 8 ∧ win1_2.index t (1 : Fin 2) = 0 :=
  (by decide +kernel : ∀ t : Fin grid1.N, _)

/-- The second region finds the activations as launched: no earlier segment writes them. -/
theorem Vb_arg0 (c : Dev nD) : Vb m c main_arg0 = m ((c : Thread nD τ).loc main_arg0) :=
  (Wb_of_ne m c main_arg0 (by decide)).trans ((Wa_of_ne m c main_arg0 (by decide)).trans rfl)

/-- The two input blocks at point `t`, typed at their literal shapes. -/
abbrev Xat (c : Dev nD) (t : Fin cfg1.N) : Vec Ideal S2048x512 .f32 := blk1 (Vb m) c 0 t
abbrev Rat (c : Dev nD) (t : Fin cfg1.N) : Vec Ideal S1x512 .f32 := blk1 (Vb m) c 1 t

/-- An entry of the activations' block at point `t`. -/
theorem blkX_apply (c : Dev nD) (t : Fin cfg1.N) (p : Fin 2048) (q : Fin 512) :
    blk1 (Vb m) c 0 t (ix2 p q) = xOf m c (ix2 (rowOf (t.val / 8) p) (colOf t.val q)) := by
  obtain ⟨e0, e1, -⟩ := idx1 t
  have hN : t.val < 64 := lt_of_lt_of_eq t.isLt N_1
  show Vb m c main_arg0 (((cfg1.win 0).blk t).view.emb (ix2 p q)) = _
  rw [Vb_arg0]
  refine congrArg _ (funext fun a => Fin.ext ?_)
  match a with
  | ⟨0, _⟩ => show win1_0.index t (0 : Fin 2) * 2048 + 1 * p.val = t.val / 8 % 8 * 2048 + p.val; omega
  | ⟨1, _⟩ => show win1_0.index t (1 : Fin 2) * 512 + 1 * q.val = t.val % 8 * 512 + q.val; omega

section
variable (hrow : ∀ (c : Dev nD) (k : Fin 4096), Vb m c main_v1 (ix2 (0 : Fin 1) k) = colSum (wOf m c) k)
include hrow

/-- An entry of the summed weights' block at point `t`. -/
theorem blkR_apply (c : Dev nD) (t : Fin cfg1.N) (q : Fin 512) :
    blk1 (Vb m) c 1 t (ix2 (0 : Fin 1) q) = colSum (wOf m c) (colOf t.val q) := by
  obtain ⟨-, -, e2, e3, -⟩ := idx1 t
  show Vb m c main_v1 (((cfg1.win 1).blk t).view.emb (ix2 (0 : Fin 1) q)) = _
  have he : ((cfg1.win 1).blk t).view.emb (ix2 (0 : Fin 1) q) = ix2 (0 : Fin 1) (colOf t.val q) := by
    funext a; apply Fin.ext
    match a with
    | ⟨0, _⟩ => show win1_1.index t (0 : Fin 2) * 1 + 1 * 0 = 0; omega
    | ⟨1, _⟩ => show win1_1.index t (1 : Fin 2) * 512 + 1 * q.val = t.val % 8 * 512 + q.val; omega
  rw [he, hrow]

/-- One term of the contraction of global row `r`: feature `k`'s activation times its summed weight. -/
def term (c : Dev nD) (r : Fin 16384) (k : ℕ) : EReal :=
  if h : k < 4096 then xOf m c (ix2 r ⟨k, h⟩) * colSum (wOf m c) ⟨k, h⟩ else 0

/-- The 512 products of one point are the terms of its feature tile. -/
theorem tile_sum (c : Dev nD) (t : Fin cfg1.N) (p : Fin 2048) :
    (∑ q : Fin 512, Xat m c t (ix2 p q) * Rat m c t (ix2 (0 : Fin 1) q))
      = ∑ k ∈ Finset.range 512, term m c (rowOf (t.val / 8) p) (t.val % 8 * 512 + k) := by
  rw [← Fin.sum_univ_eq_sum_range (fun k => term m c (rowOf (t.val / 8) p) (t.val % 8 * 512 + k)) 512]
  refine Finset.sum_congr rfl fun q _ => ?_
  dsimp only [Xat, Rat]
  rw [blkX_apply, blkR_apply m hrow]
  have hq : t.val % 8 * 512 + q.val < 4096 := by have := q.isLt; omega
  unfold term
  rw [dif_pos hq]
  rfl

/-- THE ACCUMULATION in closed form: after point `n` the scratch column holds, at local row `p`, the terms of its
    global row over the features below `(n mod 8 + 1)·512`. -/
theorem acc_closed (c : Dev nD) : ∀ (n : ℕ) (hn : n < cfg1.N) (p : Fin 2048),
    accAt (Vb m) c n hn (ix2 p (0 : Fin 1)) = ∑ k ∈ Finset.range ((n % 8 + 1) * 512), term m c (rowOf (n / 8) p) k := by
  intro n
  induction n with
  | zero =>
    intro hn p
    refine (congrFun (accAt_first (Vb m) c ⟨0, hn⟩ rfl) (ix2 p (0 : Fin 1))).trans ?_
    refine (step_apply _ _ _ p 0).trans ?_
    rw [PayloadValue.zero_apply, zero_add]
    refine (tile_sum m hrow c ⟨0, hn⟩ p).trans ?_
    refine Finset.sum_congr rfl fun k _ => ?_
    show term m c (rowOf (0 / 8) p) (0 % 8 * 512 + k) = term m c (rowOf (0 / 8) p) k
    rw [show 0 % 8 * 512 + k = k by omega]
  | succ n ih =>
    intro hn p
    by_cases h0 : (n + 1) % 8 = 0
    · refine (congrFun (accAt_first (Vb m) c ⟨n + 1, hn⟩ h0) (ix2 p (0 : Fin 1))).trans ?_
      refine (step_apply _ _ _ p 0).trans ?_
      rw [PayloadValue.zero_apply, zero_add]
      refine (tile_sum m hrow c ⟨n + 1, hn⟩ p).trans ?_
      show ∑ k ∈ Finset.range 512, term m c (rowOf ((n + 1) / 8) p) ((n + 1) % 8 * 512 + k) = _
      rw [h0]
      refine Finset.sum_congr rfl fun k _ => ?_
      rw [show 0 * 512 + k = k by omega]
    · refine (congrFun (accAt_next (Vb m) c ⟨n + 1, hn⟩ h0) (ix2 p (0 : Fin 1))).trans ?_
      refine (step_apply _ _ _ p 0).trans ?_
      have hprev := ih (Nat.lt_of_succ_lt hn) p
      have hdiv : n / 8 = (n + 1) / 8 := by omega
      have hmod : n % 8 + 1 = (n + 1) % 8 := by omega
      rw [hdiv, hmod] at hprev
      refine (congrArg₂ (· + ·) hprev (tile_sum m hrow c ⟨n + 1, hn⟩ p)).trans ?_
      show (∑ k ∈ Finset.range ((n + 1) % 8 * 512), term m c (rowOf ((n + 1) / 8) p) k)
          + ∑ k ∈ Finset.range 512, term m c (rowOf ((n + 1) / 8) p) ((n + 1) % 8 * 512 + k) = _
      rw [show ((n + 1) % 8 + 1) * 512 = (n + 1) % 8 * 512 + 512 by ring, Finset.sum_range_add]

/-- All 4096 terms of a row are its contraction against the summed weights. -/
theorem all_terms (c : Dev nD) (r : Fin 16384) :
    ∑ k ∈ Finset.range 4096, term m c r k = rowDot (xOf m c) (wOf m c) r := by
  rw [← Fin.sum_univ_eq_sum_range (fun k => term m c r k) 4096]
  refine Finset.sum_congr rfl fun k _ => ?_
  unfold term
  rw [dif_pos k.isLt]

/-- What a point with `t mod 8 = 7` stores into the output block, at local row `p`: the result at its global row. -/
theorem out_block (c : Dev nD) (t : Fin cfg1.N) (hf : t.val % 8 = 7) (p : Fin 2048) (u : Fin 1) :
    k1_pay3 (F := Ideal) (accAt (Vb m) c t.val t.isLt) (ix2 p u) = out (xOf m c) (wOf m c) (ix2 (rowOf (t.val / 8) p) (0 : Fin 1)) := by
  have hu : u = 0 := Fin.fin_one_eq_zero u
  subst hu
  rw [scaled_apply, acc_closed m hrow c t.val t.isLt p, hf, show (7 + 1) * 512 = 4096 by norm_num, all_terms m hrow]
  rfl

/-- WHAT POINT `t` WRITES BACK (where it writes back) is block `t` of the result. -/
theorem flushed_out (c : Dev nD) (t : Fin cfg1.N) (hf : t.val % 8 = 7) :
    (dat1 (F := Ideal) (Vb m) c).flushed 2 t = ((cfg1.win 2).blk t).view.read (Elt Ideal) (out (xOf m c) (wOf m c)) := by
  obtain ⟨-, -, -, -, e4, e5⟩ := idx1 t
  have hN : t.val < 64 := lt_of_lt_of_eq t.isLt N_1
  show (cfg1.win 2).cut (grid1.coords t) ((dat1 (F := Ideal) (Vb m) c).after 2 t) = _
  rw [after1_2]
  funext j
  obtain ⟨p, u, rfl⟩ : ∃ (p : Fin 2048) (u : Fin 1), j = ix2 p u := ⟨j 0, j 1, eq_ix2 j⟩
  show k1_pay3 (F := Ideal) (accAt (Vb m) c t.val t.isLt) (ix2 p u) = out (xOf m c) (wOf m c) (((cfg1.win 2).blk t).view.emb (ix2 p u))
  refine (out_block m hrow c t hf p u).trans (congrArg _ (funext fun a => Fin.ext ?_))
  have hu : u.val = 0 := by have := u.isLt; omega
  match a with
  | ⟨0, _⟩ => show t.val / 8 % 8 * 2048 + p.val = win1_2.index t (0 : Fin 2) * 2048 + 1 * p.val; omega
  | ⟨1, _⟩ => show 0 = win1_2.index t (1 : Fin 2) * 1 + 1 * u.val; omega

end

/-- An index of the result is in point `t`'s block iff each coordinate is in the block's range on its axis. -/
theorem mem_blk_out (t : Fin cfg1.N) (i : S16384x1.Idx) :
    i ∈ ((cfg1.win 2).blk t).view.set ↔ ∀ a : Fin 2, win1_2.index t a * S2048x1.size a ≤ (i a).val ∧ (i a).val < win1_2.index t a * S2048x1.size a + S2048x1.size a := by
  show i ∈ ((View.whole main_v2).slice (win1_2.rect t)).set ↔ _
  rw [View.set_slice_whole, Rect.mem_set_unit]
  exact Iff.rfl

/-- Every row of the result is in the block some point writes back: the last point of its row tile. -/
theorem cover_out (i : S16384x1.Idx) : ∃ t : Fin cfg1.N, (cfg1.win 2).flush t = true ∧ i ∈ ((cfg1.win 2).blk t).view.set := by
  have hi0 : (i 0).val < 16384 := (i 0).isLt
  have hi1 : (i 1).val < 1 := (i 1).isLt
  have hlt : (i 0).val / 2048 * 8 + 7 < cfg1.N := by rw [show cfg1.N = 64 from N_1]; omega
  obtain ⟨-, -, -, -, e4, e5⟩ := idx1 ⟨(i 0).val / 2048 * 8 + 7, hlt⟩
  refine ⟨⟨(i 0).val / 2048 * 8 + 7, hlt⟩, (flush1_2 _).mpr (by show ((i 0).val / 2048 * 8 + 7) % 8 = 7; omega), ?_⟩
  rw [mem_blk_out]
  intro a
  have e4' : win1_2.index ⟨(i 0).val / 2048 * 8 + 7, hlt⟩ (0 : Fin 2) = ((i 0).val / 2048 * 8 + 7) / 8 := e4
  match a with
  | ⟨0, _⟩ =>
    show win1_2.index ⟨(i 0).val / 2048 * 8 + 7, hlt⟩ (0 : Fin 2) * 2048 ≤ (i 0).val ∧ (i 0).val < win1_2.index ⟨(i 0).val / 2048 * 8 + 7, hlt⟩ (0 : Fin 2) * 2048 + 2048
    omega
  | ⟨1, _⟩ =>
    show win1_2.index ⟨(i 0).val / 2048 * 8 + 7, hlt⟩ (1 : Fin 2) * 1 ≤ (i 1).val ∧ (i 1).val < win1_2.index ⟨(i 0).val / 2048 * 8 + 7, hlt⟩ (1 : Fin 2) * 1 + 1
    omega

/-- THE RESULT ARRAY after the run: the specification's `out` of the arguments as launched. -/
theorem result_final (hrow : ∀ (c : Dev nD) (k : Fin 4096), Vb m c main_v1 (ix2 (0 : Fin 1) k) = colSum (wOf m c) k) (c : Dev nD) :
    (dat1 (F := Ideal) (Vb m) c).arrAt 2 cfg1.N = out (xOf m c) (wOf m c) :=
  (dat1 (F := Ideal) (Vb m) c).arrAt_eq_of_cover 2 _ (fun t hf => flushed_out m hrow c t ((flush1_2 t).mp hf)) cover_out

end Cert.KernelIdeal.KValue

end
-- ==== Proof.MatvecAlgebra.lean ====
/-
  The algebraic law between the two arrangements of the result.

  One arrangement contracts a row of `x` against the weights first and sums the products along the hidden axis
  afterwards: `∑ n, ∑ k, x r k · w k n`. The other sums the weights along the hidden axis first and contracts the
  row against that vector: `∑ k, x r k · (∑ n, w k n)`. Over the extended reals the two need not agree (a factor does
  not move across a sum at the infinities), but they do wherever every entry is a real number: the coercion of the
  reals is additive and multiplicative, so both sides are coercions of real sums, and over the reals two finite sums
  commute and a factor moves across a finite sum.
-/
import proofs.«121458_j88940182766071_2_alg».proof.Proof.MatvecSpec

noncomputable section

namespace Cert.MatvecSpec

open Idealize.ShloMosaic Idealize.ShloMosaic.ValueIdx

/-- The coercion of the reals into the extended reals commutes with a finite sum. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over any two finite index types, for real families `a` and `b` read in the extended reals:
    `∑ n, ∑ k, a k · b k n = ∑ k, a k · (∑ n, b k n)`. Both sides are the coercion of a real sum; over the reals
    the two sums commute and the factor `a k` moves out of the inner sum. -/
theorem sum_sum_mul_eq_sum_mul_sum {ι κ : Type*} [Fintype ι] [Fintype κ] (a : ι → ℝ) (b : ι → κ → ℝ) :
    (∑ n : κ, ∑ k : ι, (a k : EReal) * (b k n : EReal)) = ∑ k : ι, (a k : EReal) * ∑ n : κ, (b k n : EReal) := by
  simp only [← EReal.coe_mul, ← coe_finset_sum]
  rw [Finset.sum_comm]
  refine congrArg _ (Finset.sum_congr rfl fun k _ => ?_)
  rw [Finset.mul_sum]

/-- For arrays whose entries are all real numbers, contracting row `r` of `x` against `w` and then summing along the
    hidden axis equals contracting row `r` against the weights summed along the hidden axis:
    `∑ n, ∑ k, x r k · w k n = ∑ k, x r k · (∑ n, w k n)`. -/
theorem sum_swap_of_real (x : SX.Idx → EReal) (w : SW.Idx → EReal) (hx : AllReal x) (hw : AllReal w) (r : Fin 16384) :
    (∑ n : Fin 4096, ∑ k : Fin 4096, x (ix2 r k) * w (ix2 k n)) = rowDot x w r := by
  choose xr hxr using hx
  choose wr hwr using hw
  unfold rowDot colSum
  simp only [hxr, hwr]
  exact sum_sum_mul_eq_sum_mul_sum (fun k : Fin 4096 => xr (ix2 r k)) (fun (k : Fin 4096) (n : Fin 4096) => wr (ix2 k n))

end Cert.MatvecSpec

end
-- ==== Proof.MatvecReference.lean ====
/-
  The reference computes the specification's function.

  Read one operation at a time, the reference's result at row `r` is

      (0 + ∑ n, ∑ k, x r k · w k n) · ½ ,

  a change of float format being the identity over the extended reals: it contracts each row of `x` against the
  weights and sums the product matrix along the hidden axis, from the initial value zero, then scales by ½. Where every
  entry of both inputs is a real number the double sum is the row contracted against the weights summed along the hidden
  axis, which is the specification's arrangement.
-/
import proofs.«121458_j88940182766071_2_alg».proof.Proof.MatvecSpec
import proofs.«121458_j88940182766071_2_alg».proof.Proof.MatvecAlgebra
import proofs.«121458_j88940182766071_2_alg».proof.Proof.Gen.ReferenceIdeal.Read

noncomputable section

namespace Cert.ReferenceIdeal.RefValue

open Cert.ReferenceIdeal Cert.ReferenceIdeal.Read Cert.MatvecSpec Idealize.ShloMosaic Idealize.ShloMosaic.ValueIdx

/-- The product matrix at row `r`, hidden column `n`, read through the index maps of the row sum and of the
    broadcast to a column: `∑ k, x r k · w k n` (the two changes of format are the identity). -/
theorem product_apply (x : FVec Ideal S16384x4096 .f32) (w : FVec Ideal S4096x4096 .f32)
    (r : Fin 16384) (c : Fin 1) (n : Fin 4096) :
    val_main_v2 (F := Ideal) x w (idx_main_v3 (idx_main_v4 (ix2 r c)) n)
      = ∑ k : Fin 4096, x (ix2 r k) * w (ix2 k n) := by
  rw [val_main_v2_apply]
  refine Finset.sum_congr rfl fun k _ => ?_
  rw [val_main_v0_apply, val_main_v1_apply, Ideal.truncf_def, Ideal.truncf_def]
  have el : lidx_main_v2 (idx_main_v3 (idx_main_v4 (ix2 r c)) n) k = ix2 r k :=
    funext fun a => Fin.ext (by match a with | ⟨0, _⟩ => rfl | ⟨1, _⟩ => rfl)
  have er : ridx_main_v2 (idx_main_v3 (idx_main_v4 (ix2 r c)) n) k = ix2 k n :=
    funext fun a => Fin.ext (by match a with | ⟨0, _⟩ => rfl | ⟨1, _⟩ => rfl)
  rw [el, er]

/-- Where every entry of `x` and of `w` is a real number, the reference's result is the specification's:
    `(∑ k, x r k · (∑ n, w k n)) · ½` at row `r`. -/
theorem result_eq (x : FVec Ideal Cert.ReferenceIdeal.S16384x4096 .f32) (w : FVec Ideal Cert.ReferenceIdeal.S4096x4096 .f32)
    (hx : Cert.MatvecSpec.AllReal x) (hw : Cert.MatvecSpec.AllReal w) :
    Cert.ReferenceIdeal.Read.val_main_v7 (F := Ideal) x w = Cert.MatvecSpec.out x w := by
  funext i
  obtain ⟨r, c, rfl⟩ : ∃ (r : Fin 16384) (c : Fin 1), i = ix2 r c := ⟨i 0, i 1, eq_ix2 i⟩
  rw [val_main_v7_apply, val_main_v6_apply, val_main_v4_apply, val_main_v5_apply, val_main_cst_0_apply,
    val_main_v3_apply, val_main_cst_apply]
  rw [Finset.sum_congr rfl fun n _ => product_apply x w r c n, sum_swap_of_real x w hx hw r]
  simp only [Ideal.truncf_def, Ideal.mulf_def, Ideal.ofBits_def, Ideal.ofBits_zero_f32, zero_add]
  rfl

end Cert.ReferenceIdeal.RefValue

end
-- ==== Proof.MatvecFinite.lean ====
/-
  From the precondition to "every entry is a real number".

  The precondition states, for each of the two input arrays, that `|a| < +∞` holds at every entry `a` (a comparison of
  every entry's absolute value with the word of `+∞`, folded by `and` over the whole array, the two folds joined by
  `and`). Over the extended reals `|a| = max a (-a)` is `+∞` exactly at the two infinities, so `|a| < +∞` says that
  `a` is a real number.
-/
import proofs.«121458_j88940182766071_2_alg».proof.Proof.MatvecSpec
import proofs.«121458_j88940182766071_2_alg».proof.Pre_finite_inputs
import Idealize.ShloMosaic.Lib.ReduceAll
import Idealize.ShloMosaic.PureOps.Ideal.Laws

noncomputable section

namespace Cert.MatvecSpec

open Idealize.ShloMosaic Idealize.ShloMosaic.ValueIdx

/-- The shape with no axes has exactly one index. -/
instance subsingleton_scalar_idx : Subsingleton Cert.Pre_finite_inputs.S_.Idx :=
  ⟨fun a b => funext fun d => d.elim0⟩

/-- The binary32 word `0x7F800000` denotes `+∞`. -/
theorem ofBits_inf_f32 : Ideal.ofBits .f32 0x7F800000#32 = (⊤ : EReal) := by
  simp [Ideal.ofBits, Ideal.ieee]

/-- An extended real whose absolute value `max a (-a)` compares below the word of `+∞` is a real number: at either
    infinity the absolute value is `+∞` itself. -/
theorem real_of_abs_lt_inf (a : EReal)
    (h : Ideal.cmp .olt (max a (-a)) (Ideal.ofBits .f32 0x7F800000#32) = 1#1) : ∃ r : ℝ, a = (r : EReal) := by
  rw [ofBits_inf_f32] at h
  induction a using EReal.rec with
  | bot => simp [Ideal.cmp] at h
  | coe r => exact ⟨r, rfl⟩
  | top => simp [Ideal.cmp] at h

/-- Under the precondition (`|a| < +∞` at every entry of both inputs) every entry of `x` and every entry of `w` is a
    real number. -/
theorem allReal_of_pre [Cert.Pre_finite_inputs.Facts]
    (x : FVec Ideal Cert.Pre_finite_inputs.S16384x4096 .f32) (w : FVec Ideal Cert.Pre_finite_inputs.S4096x4096 .f32)
    (h : Cert.Pre_finite_inputs.fn (F := Ideal) x w = (fun _ => 1#1)) : AllReal x ∧ AllReal w := by
  have h0 := congrFun h ValueIdx.ix0
  dsimp only [Cert.Pre_finite_inputs.fn] at h0
  obtain ⟨hx, hw⟩ := IntOp.andi_eq_one.1 h0
  refine ⟨fun j => ?_, fun j => ?_⟩
  · exact real_of_abs_lt_inf (x j) (Host.reduce_andi_all _ _ _ _ _ hx j)
  · exact real_of_abs_lt_inf (w j) (Host.reduce_andi_all _ _ _ _ _ hw j)

end Cert.MatvecSpec

end
-- ==== Proof.lean ====
/-
  `Cert.Claim` for a fused "matmul, row-sum, scale" kernel against its plain reference.

  On activations `x : f32[16384, 4096]` and weights `w : f32[4096, 4096]` the reference forms the product matrix
  `x · w` (operands narrowed to bf16, accumulated in f32), sums each of its rows along the hidden axis, scales by ½
  and narrows to bf16. The kernel never forms the product: a first pallas_call sums the weights along the hidden axis,
  one number per input feature (`s k = ∑ n, w k n`); a host reshape turns that `[4096, 1]` column into a `[1, 4096]`
  row; a second pallas_call contracts each row of `x` against the row, feature tile by feature tile into a scratch
  column, and on the last tile scales by ½ and stores.

  At the exact instance a change of float format is the identity, so both programs are polynomials in the entries:

      reference r = (∑ n, ∑ k, x r k · w k n) · ½        kernel r = (∑ k, x r k · ∑ n, w k n) · ½ .

  They agree wherever every entry is a real number (the precondition): a real factor moves across a finite sum, and two
  finite sums commute. On the extended reals this can fail at infinities, which is why the precondition is used.

  * The three frames: each program runs to the end, faults nowhere, and leaves both arguments as launched. For the two
    kernel programs this is the run of @main as three segments (first region, reshape, second region), the second region
    carrying its scratch column through an invariant indexed by the grid point; for the reference it is its run with
    the result dropped.
  * `preserves`: the two places where the idealized kernel drops a narrowing to bf16 followed by a widening back.
  * `algebraic`: the kernel's result array, read off its run block by block, and the reference's result term, read one
    operation at a time, are both the specification's `out` of the arguments.
-/
import proofs.«121458_j88940182766071_2_alg».proof.Defs
import proofs.«121458_j88940182766071_2_alg».proof.Proof.Gen.Kernel
import proofs.«121458_j88940182766071_2_alg».proof.Proof.Gen.KernelIdeal
import proofs.«121458_j88940182766071_2_alg».proof.Proof.Gen.ReferenceIdeal
import proofs.«121458_j88940182766071_2_alg».proof.Proof.Gen.ReferenceIdeal.Run
import proofs.«121458_j88940182766071_2_alg».proof.Proof.Gen.ReferenceIdeal.Read
import proofs.«121458_j88940182766071_2_alg».proof.Proof.Gen.Pre_finite_inputs
import proofs.«121458_j88940182766071_2_alg».proof.Proof.KernelRun
import proofs.«121458_j88940182766071_2_alg».proof.Proof.KernelIdealRun
import proofs.«121458_j88940182766071_2_alg».proof.Proof.KernelIdealValue0
import proofs.«121458_j88940182766071_2_alg».proof.Proof.KernelIdealValue1
import proofs.«121458_j88940182766071_2_alg».proof.Proof.MatvecReference
import proofs.«121458_j88940182766071_2_alg».proof.Proof.MatvecFinite
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Frm.frame m ρ

/-- So does the idealized kernel. -/
theorem frame_kernelIdeal : Cert.frame_KernelIdeal := fun m ρ _ => Cert.KernelIdeal.Frm.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Narrowing an f32 block to bf16 and widening it back is the identity at the exact instance: once for the
    `[512, 4096]` weights block, once for the `[2048, 512]` activations block. -/
theorem preserves : Cert.preserves_Kernel_KernelIdeal :=
  ⟨IdealRules.truncf_extf.statement _ .f32 .bf16, IdealRules.truncf_extf.statement _ .f32 .bf16⟩

/-- Both programs end with the specification's `out` of the arguments in their result arrays. -/
theorem algebraic : Cert.algebraic_KernelIdeal_ReferenceIdeal := by
  intro m ρ m' ρ' hpre hagree
  refine ⟨fun c => Cert.MatvecSpec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.KValue.result_final m (Cert.KernelIdeal.KValue.summedRow_apply m) c), (h c).2⟩)
      (Cert.KernelIdeal.Frm.run_named m ρ)
  · refine (θ_run Cert.ReferenceIdeal.defs _ _).mono (fun _ h c => ⟨(h c).1.trans ?_, (h c).2⟩)
      (Cert.ReferenceIdeal.Value.run (F := Ideal) m' ρ')
    obtain ⟨hx, hw⟩ := Cert.MatvecSpec.allReal_of_pre _ _ (hpre c)
    rw [(hagree c).1, (hagree c).2]
    exact (Cert.ReferenceIdeal.Read.val_main_v7_eq _ _).trans (Cert.ReferenceIdeal.RefValue.result_eq _ _ hx hw)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
